-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x2048 : Shape := ⟨4, ![2, 8, 2048, 2048]⟩
abbrev S2x2048x3 : Shape := ⟨3, ![2, 2048, 3]⟩
abbrev S2x2048x1 : Shape := ⟨3, ![2, 2048, 1]⟩
abbrev S4x8 : Shape := ⟨2, ![4, 8]⟩
abbrev S_ : Shape := ⟨0, ![]⟩

class Facts : Prop where
  bcast_S_S2x8x2048x2048 : S_.BroadcastsInDim S2x8x2048x2048 (![] : Fin 0 → Fin S2x8x2048x2048.rank)
  reducesTo_S2x8x2048x2048_S_d0_1_2_3 : S2x8x2048x2048.ReducesTo [0, 1, 2, 3] S_
  h_S_ : 0 < S_.numel
  bcast_S_S2x2048x3 : S_.BroadcastsInDim S2x2048x3 (![] : Fin 0 → Fin S2x2048x3.rank)
  reducesTo_S2x2048x3_S_d0_1_2 : S2x2048x3.ReducesTo [0, 1, 2] S_
  bcast_S_S2x2048x1 : S_.BroadcastsInDim S2x2048x1 (![] : Fin 0 → Fin S2x2048x1.rank)
  reducesTo_S2x2048x1_S_d0_1_2 : S2x2048x1.ReducesTo [0, 1, 2] S_
  bcast_S_S4x8 : S_.BroadcastsInDim S4x8 (![] : Fin 0 → Fin S4x8.rank)
  reducesTo_S4x8_S_d0_1 : S4x8.ReducesTo [0, 1] S_

variable [Facts]

def fn_part2 {F : FTy → Type} [FloatOps F] (main_arg7 : FVec F S4x8 .f32) (main_arg8 : FVec F S4x8 .f32) (main_v33 : IVec S_ 1) : IVec S_ 1 :=
  let main_v34 : FVec F S4x8 .f32 := Host.absf main_arg7
  let main_cst_12 : FVec F S_ .f32 := constant S_ .f32 0x7F800000#32
  let main_v35 : FVec F S4x8 .f32 := broadcastInDim S4x8 ![] bcast_S_S4x8 main_cst_12
  let main_v36 : IVec S4x8 1 := cmpf .olt main_v34 main_v35
  let main_c_13 : IVec S_ 1 := constantI S_ 1 1#1
  let main_v37 : IVec S_ 1 := (fun x v => Host.reduce IntOp.andi x v reducesTo_S4x8_S_d0_1 h_S_) main_v36 main_c_13
  let main_v38 : IVec S_ 1 := andi main_v33 main_v37
  let main_v39 : FVec F S4x8 .f32 := Host.absf main_arg8
  let main_cst_14 : FVec F S_ .f32 := constant S_ .f32 0x7F800000#32
  let main_v40 : FVec F S4x8 .f32 := broadcastInDim S4x8 ![] bcast_S_S4x8 main_cst_14
  let main_v41 : IVec S4x8 1 := cmpf .olt main_v39 main_v40
  let main_c_15 : IVec S_ 1 := constantI S_ 1 1#1
  let main_v42 : IVec S_ 1 := (fun x v => Host.reduce IntOp.andi x v reducesTo_S4x8_S_d0_1 h_S_) main_v41 main_c_15
  let main_v43 : IVec S_ 1 := andi main_v38 main_v42
  main_v43

def fn_part1 {F : FTy → Type} [FloatOps F] (main_arg4 : FVec F S2x2048x1 .f32) (main_arg5 : FVec F S4x8 .f32) (main_arg6 : FVec F S4x8 .f32) (main_arg7 : FVec F S4x8 .f32) (main_arg8 : FVec F S4x8 .f32) (main_v13 : IVec S_ 1) (main_v16 : IVec S2x2048x1 1) : IVec S_ 1 :=
  let main_c_5 : IVec S_ 1 := constantI S_ 1 1#1
  let main_v17 : IVec S_ 1 := (fun x v => Host.reduce IntOp.andi x v reducesTo_S2x2048x1_S_d0_1_2 h_S_) main_v16 main_c_5
  let main_v18 : IVec S_ 1 := andi main_v13 main_v17
  let main_v19 : FVec F S2x2048x1 .f32 := Host.absf main_arg4
  let main_cst_6 : FVec F S_ .f32 := constant S_ .f32 0x7F800000#32
  let main_v20 : FVec F S2x2048x1 .f32 := broadcastInDim S2x2048x1 ![] bcast_S_S2x2048x1 main_cst_6
  let main_v21 : IVec S2x2048x1 1 := cmpf .olt main_v19 main_v20
  let main_c_7 : IVec S_ 1 := constantI S_ 1 1#1
  let main_v22 : IVec S_ 1 := (fun x v => Host.reduce IntOp.andi x v reducesTo_S2x2048x1_S_d0_1_2 h_S_) main_v21 main_c_7
  let main_v23 : IVec S_ 1 := andi main_v18 main_v22
  let main_v24 : FVec F S4x8 .f32 := Host.absf main_arg5
  let main_cst_8 : FVec F S_ .f32 := constant S_ .f32 0x7F800000#32
  let main_v25 : FVec F S4x8 .f32 := broadcastInDim S4x8 ![] bcast_S_S4x8 main_cst_8
  let main_v26 : IVec S4x8 1 := cmpf .olt main_v24 main_v25
  let main_c_9 : IVec S_ 1 := constantI S_ 1 1#1
  let main_v27 : IVec S_ 1 := (fun x v => Host.reduce IntOp.andi x v reducesTo_S4x8_S_d0_1 h_S_) main_v26 main_c_9
  let main_v28 : IVec S_ 1 := andi main_v23 main_v27
  let main_v29 : FVec F S4x8 .f32 := Host.absf main_arg6
  let main_cst_10 : FVec F S_ .f32 := constant S_ .f32 0x7F800000#32
  let main_v30 : FVec F S4x8 .f32 := broadcastInDim S4x8 ![] bcast_S_S4x8 main_cst_10
  let main_v31 : IVec S4x8 1 := cmpf .olt main_v29 main_v30
  let main_c_11 : IVec S_ 1 := constantI S_ 1 1#1
  let main_v32 : IVec S_ 1 := (fun x v => Host.reduce IntOp.andi x v reducesTo_S4x8_S_d0_1 h_S_) main_v31 main_c_11
  let main_v33 : IVec S_ 1 := andi main_v28 main_v32
  fn_part2 (F := F) main_arg7 main_arg8 main_v33

def fn {F : FTy → Type} [FloatOps F] (main_arg0 : FVec F S2x8x2048x2048 .f32) (main_arg1 : FVec F S2x2048x3 .f32) (main_arg2 : FVec F S2x2048x3 .f32) (main_arg3 : FVec F S2x2048x1 .f32) (main_arg4 : FVec F S2x2048x1 .f32) (main_arg5 : FVec F S4x8 .f32) (main_arg6 : FVec F S4x8 .f32) (main_arg7 : FVec F S4x8 .f32) (main_arg8 : FVec F S4x8 .f32) : IVec S_ 1 :=
  let main_v0 : FVec F S2x8x2048x2048 .f32 := Host.absf main_arg0
  let main_cst : FVec F S_ .f32 := constant S_ .f32 0x7F800000#32
  let main_v1 : FVec F S2x8x2048x2048 .f32 := broadcastInDim S2x8x2048x2048 ![] bcast_S_S2x8x2048x2048 main_cst
  let main_v2 : IVec S2x8x2048x2048 1 := cmpf .olt main_v0 main_v1
  let main_c : IVec S_ 1 := constantI S_ 1 1#1
  let main_v3 : IVec S_ 1 := (fun x v => Host.reduce IntOp.andi x v reducesTo_S2x8x2048x2048_S_d0_1_2_3 h_S_) main_v2 main_c
  let main_v4 : FVec F S2x2048x3 .f32 := Host.absf main_arg1
  let main_cst_0 : FVec F S_ .f32 := constant S_ .f32 0x7F800000#32
  let main_v5 : FVec F S2x2048x3 .f32 := broadcastInDim S2x2048x3 ![] bcast_S_S2x2048x3 main_cst_0
  let main_v6 : IVec S2x2048x3 1 := cmpf .olt main_v4 main_v5
  let main_c_1 : IVec S_ 1 := constantI S_ 1 1#1
  let main_v7 : IVec S_ 1 := (fun x v => Host.reduce IntOp.andi x v reducesTo_S2x2048x3_S_d0_1_2 h_S_) main_v6 main_c_1
  let main_v8 : IVec S_ 1 := andi main_v3 main_v7
  let main_v9 : FVec F S2x2048x3 .f32 := Host.absf main_arg2
  let main_cst_2 : FVec F S_ .f32 := constant S_ .f32 0x7F800000#32
  let main_v10 : FVec F S2x2048x3 .f32 := broadcastInDim S2x2048x3 ![] bcast_S_S2x2048x3 main_cst_2
  let main_v11 : IVec S2x2048x3 1 := cmpf .olt main_v9 main_v10
  let main_c_3 : IVec S_ 1 := constantI S_ 1 1#1
  let main_v12 : IVec S_ 1 := (fun x v => Host.reduce IntOp.andi x v reducesTo_S2x2048x3_S_d0_1_2 h_S_) main_v11 main_c_3
  let main_v13 : IVec S_ 1 := andi main_v8 main_v12
  let main_v14 : FVec F S2x2048x1 .f32 := Host.absf main_arg3
  let main_cst_4 : FVec F S_ .f32 := constant S_ .f32 0x7F800000#32
  let main_v15 : FVec F S2x2048x1 .f32 := broadcastInDim S2x2048x1 ![] bcast_S_S2x2048x1 main_cst_4
  let main_v16 : IVec S2x2048x1 1 := cmpf .olt main_v14 main_v15
  fn_part1 (F := F) main_arg4 main_arg5 main_arg6 main_arg7 main_arg8 main_v13 main_v16
-- ==== Kernel.lean ====
abbrev S2x8x2048x2048 : Shape := ⟨4, ![2, 8, 2048, 2048]⟩
abbrev S2x2048x3 : Shape := ⟨3, ![2, 2048, 3]⟩
abbrev S2x2048x1 : Shape := ⟨3, ![2, 2048, 1]⟩
abbrev S4x8 : Shape := ⟨2, ![4, 8]⟩
abbrev S1x8x256x256 : Shape := ⟨4, ![1, 8, 256, 256]⟩
abbrev S1x256x3 : Shape := ⟨3, ![1, 256, 3]⟩
abbrev S1x256x1 : Shape := ⟨3, ![1, 256, 1]⟩
abbrev S256x3 : Shape := ⟨2, ![256, 3]⟩
abbrev S256x256 : Shape := ⟨2, ![256, 256]⟩
abbrev S256x1 : Shape := ⟨2, ![256, 1]⟩
abbrev S256 : Shape := ⟨1, ![256]⟩
abbrev S1x256 : Shape := ⟨2, ![1, 256]⟩
abbrev S8x256x256 : Shape := ⟨3, ![8, 256, 256]⟩
abbrev S1x8 : Shape := ⟨2, ![1, 8]⟩
abbrev S8 : Shape := ⟨1, ![8]⟩
abbrev S8x1x1 : Shape := ⟨3, ![8, 1, 1]⟩
abbrev S1x256x256 : Shape := ⟨3, ![1, 256, 256]⟩

abbrev nBuf : Space → Nat
  | .hbm => 10
  | .vmem => 16
  | .smem => 0
  | _ => 0

abbrev bufTy : (tb : Table) → Fin (tcTables nBuf tb) → BufTy
  | .hbm, ⟨0, _⟩ => ⟨S2x8x2048x2048, .f32⟩
  | .hbm, ⟨1, _⟩ => ⟨S2x2048x3, .f32⟩
  | .hbm, ⟨2, _⟩ => ⟨S2x2048x3, .f32⟩
  | .hbm, ⟨3, _⟩ => ⟨S2x2048x1, .f32⟩
  | .hbm, ⟨4, _⟩ => ⟨S2x2048x1, .f32⟩
  | .hbm, ⟨5, _⟩ => ⟨S4x8, .f32⟩
  | .hbm, ⟨6, _⟩ => ⟨S4x8, .f32⟩
  | .hbm, ⟨7, _⟩ => ⟨S4x8, .f32⟩
  | .hbm, ⟨8, _⟩ => ⟨S4x8, .f32⟩
  | .hbm, ⟨9, _⟩ => ⟨S2x8x2048x2048, .f32⟩
  | .local _ .vmem, ⟨0, _⟩ => ⟨S1x8x256x256, .f32⟩
  | .local _ .vmem, ⟨1, _⟩ => ⟨S1x8x256x256, .f32⟩
  | .local _ .vmem, ⟨2, _⟩ => ⟨S1x256x3, .f32⟩
  | .local _ .vmem, ⟨3, _⟩ => ⟨S1x256x3, .f32⟩
  | .local _ .vmem, ⟨4, _⟩ => ⟨S1x256x3, .f32⟩
  | .local _ .vmem, ⟨5, _⟩ => ⟨S1x256x3, .f32⟩
  | .local _ .vmem, ⟨6, _⟩ => ⟨S1x256x1, .f32⟩
  | .local _ .vmem, ⟨7, _⟩ => ⟨S1x256x1, .f32⟩
  | .local _ .vmem, ⟨8, _⟩ => ⟨S1x256x1, .f32⟩
  | .local _ .vmem, ⟨9, _⟩ => ⟨S1x256x1, .f32⟩
  | .local _ .vmem, ⟨10, _⟩ => ⟨S4x8, .f32⟩
  | .local _ .vmem, ⟨11, _⟩ => ⟨S4x8, .f32⟩
  | .local _ .vmem, ⟨12, _⟩ => ⟨S4x8, .f32⟩
  | .local _ .vmem, ⟨13, _⟩ => ⟨S4x8, .f32⟩
  | .local _ .vmem, ⟨14, _⟩ => ⟨S1x8x256x256, .f32⟩
  | .local _ .vmem, ⟨15, _⟩ => ⟨S1x8x256x256, .f32⟩
  | _, _ => ⟨S2x8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S4x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S4x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x8x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

class Facts₀ : Prop where
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  slices_S256x3_o0_0_S256x1 : S256x3.Slices ![0, 0] S256x1
  shapeCasts_S256x1_S256 : S256x1.ShapeCasts S256
  shapeCasts_S256_S256x1 : S256.ShapeCasts S256x1
  shapeCasts_S256_S1x256 : S256.ShapeCasts S1x256
  broadcasts_S256x1_S256x256 : S256x1.Broadcasts S256x256
  broadcasts_S1x256_S256x256 : S1x256.Broadcasts S256x256
  slices_S256x3_o0_1_S256x1 : S256x3.Slices ![0, 1] S256x1
  slices_S256x3_o0_2_S256x1 : S256x3.Slices ![0, 2] S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S4x8_S1x8_0_0 : ∀ a, (![0, 0] : Fin 2 → Nat) a + S1x8.size a ≤ S4x8.size a
  h_S1x8 : 0 < S1x8.numel
  shapeCasts_S1x8_S8 : S1x8.ShapeCasts S8
  shapeCasts_S8_S8x1x1 : S8.ShapeCasts S8x1x1
  shapeCasts_S256x256_S1x256x256 : S256x256.ShapeCasts S1x256x256
  broadcasts_S8x1x1_S8x256x256 : S8x1x1.Broadcasts S8x256x256
  broadcasts_S1x256x256_S8x256x256 : S1x256x256.Broadcasts S8x256x256
  inb_S4x8_S1x8_1_0 : ∀ a, (![1, 0] : Fin 2 → Nat) a + S1x8.size a ≤ S4x8.size a
  inb_S4x8_S1x8_2_0 : ∀ a, (![2, 0] : Fin 2 → Nat) a + S1x8.size a ≤ S4x8.size a
  inb_S4x8_S1x8_3_0 : ∀ a, (![3, 0] : Fin 2 → Nat) a + S1x8.size a ≤ S4x8.size a
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  shapeCasts_S8x256x256_S1x8x256x256 : S8x256x256.ShapeCasts S1x8x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S2x8x2048x2048.size a
  hwx0_0 : ∀ i : grid0.Coords, EltTy.bits .f32 = 32 ∨ (Rect.block (s := S2x8x2048x2048) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S2x2048x3.size a
  hwx0_1 : ∀ i : grid0.Coords, EltTy.bits .f32 = 32 ∨ (Rect.block (s := S2x2048x3) S1x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x3.size a ≤ S2x2048x3.size a
  hwx0_2 : ∀ i : grid0.Coords, EltTy.bits .f32 = 32 ∨ (Rect.block (s := S2x2048x3) S1x256x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S2x2048x1.size a
  hwx0_3 : ∀ i : grid0.Coords, EltTy.bits .f32 = 32 ∨ (Rect.block (s := S2x2048x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S2x2048x1.size a
  hwx0_4 : ∀ i : grid0.Coords, EltTy.bits .f32 = 32 ∨ (Rect.block (s := S2x2048x1) S1x256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x8.size a ≤ S4x8.size a
  hwx0_5 : ∀ i : grid0.Coords, EltTy.bits .f32 = 32 ∨ (Rect.block (s := S4x8) S4x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x8.size a ≤ S4x8.size a
  hwx0_6 : ∀ i : grid0.Coords, EltTy.bits .f32 = 32 ∨ (Rect.block (s := S4x8) S4x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x8.size a ≤ S4x8.size a
  hwx0_7 : ∀ i : grid0.Coords, EltTy.bits .f32 = 32 ∨ (Rect.block (s := S4x8) S4x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x8.size a ≤ S4x8.size a
  hwx0_8 : ∀ i : grid0.Coords, EltTy.bits .f32 = 32 ∨ (Rect.block (s := S4x8) S4x8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x256x256.size a ≤ S2x8x2048x2048.size a
  hwx0_9 : ∀ i : grid0.Coords, EltTy.bits .f32 = 32 ∨ (Rect.block (s := S2x8x2048x2048) S1x8x256x256.size (cc0_transform_9 i) (hinb0_9 i)).WholeWords (EltTy.packing .f32)

variable [Facts₀]

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x8x256x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x8x2048x2048 : Shape := ⟨4, ![2, 8, 2048, 2048]⟩
abbrev S2x2048x3 : Shape := ⟨3, ![2, 2048, 3]⟩
abbrev S2x2048x1 : Shape := ⟨3, ![2, 2048, 1]⟩
abbrev S4x8 : Shape := ⟨2, ![4, 8]⟩
abbrev S2x2048x1x3 : Shape := ⟨4, ![2, 2048, 1, 3]⟩
abbrev S2x1x2048x3 : Shape := ⟨4, ![2, 1, 2048, 3]⟩
abbrev S2x2048x2048x3 : Shape := ⟨4, ![2, 2048, 2048, 3]⟩
abbrev S_ : Shape := ⟨0, ![]⟩
abbrev S2x2048x2048 : Shape := ⟨3, ![2, 2048, 2048]⟩
abbrev S2x2048x1x1 : Shape := ⟨4, ![2, 2048, 1, 1]⟩
abbrev S2x1x2048x1 : Shape := ⟨4, ![2, 1, 2048, 1]⟩
abbrev S2x2048x2048x1 : Shape := ⟨4, ![2, 2048, 2048, 1]⟩
abbrev S1x8 : Shape := ⟨2, ![1, 8]⟩
abbrev S8 : Shape := ⟨1, ![8]⟩
abbrev S1x8x1x1 : Shape := ⟨4, ![1, 8, 1, 1]⟩
abbrev S2x1x2048x2048 : Shape := ⟨4, ![2, 1, 2048, 2048]⟩

abbrev nBuf : Space → Nat
  | .hbm => 145
  | .vmem => 0
  | .smem => 0
  | _ => 0

abbrev hbmTy0_0 (i : Nat) : BufTy := match i % 128 with
  | 0 => ⟨S2x8x2048x2048, .f32⟩
  | 1 => ⟨S2x2048x3, .f32⟩
  | 2 => ⟨S2x2048x3, .f32⟩
  | 3 => ⟨S2x2048x1, .f32⟩
  | 4 => ⟨S2x2048x1, .f32⟩
  | 5 => ⟨S4x8, .f32⟩
  | 6 => ⟨S4x8, .f32⟩
  | 7 => ⟨S4x8, .f32⟩
  | 8 => ⟨S4x8, .f32⟩
  | 9 => ⟨S2x2048x1x3, .f32⟩
  | 10 => ⟨S2x1x2048x3, .f32⟩
  | 11 => ⟨S2x2048x2048x3, .f32⟩
  | 12 => ⟨S2x2048x2048x3, .f32⟩
  | 13 => ⟨S2x2048x2048x3, .f32⟩
  | 14 => ⟨S2x2048x2048x3, .f32⟩
  | 15 => ⟨S_, .f32⟩
  | 16 => ⟨S2x2048x2048, .f32⟩
  | 17 => ⟨S2x2048x1x1, .f32⟩
  | 18 => ⟨S2x1x2048x1, .f32⟩
  | 19 => ⟨S2x2048x2048x1, .f32⟩
  | 20 => ⟨S2x2048x2048x1, .f32⟩
  | 21 => ⟨S2x2048x2048x1, .f32⟩
  | 22 => ⟨S2x2048x2048x1, .f32⟩
  | 23 => ⟨S_, .f32⟩
  | 24 => ⟨S2x2048x2048, .f32⟩
  | 25 => ⟨S1x8, .f32⟩
  | 26 => ⟨S8, .f32⟩
  | 27 => ⟨S1x8x1x1, .f32⟩
  | 28 => ⟨S1x8, .f32⟩
  | 29 => ⟨S8, .f32⟩
  | 30 => ⟨S1x8x1x1, .f32⟩
  | 31 => ⟨S1x8x1x1, .f32⟩
  | 32 => ⟨S2x1x2048x2048, .f32⟩
  | 33 => ⟨S2x8x2048x2048, .f32⟩
  | 34 => ⟨S2x8x2048x2048, .f32⟩
  | 35 => ⟨S2x8x2048x2048, .f32⟩
  | 36 => ⟨S2x8x2048x2048, .f32⟩
  | 37 => ⟨S2x8x2048x2048, .f32⟩
  | 38 => ⟨S2x8x2048x2048, .f32⟩
  | 39 => ⟨S2x8x2048x2048, .f32⟩
  | 40 => ⟨S1x8, .f32⟩
  | 41 => ⟨S8, .f32⟩
  | 42 => ⟨S1x8x1x1, .f32⟩
  | 43 => ⟨S1x8, .f32⟩
  | 44 => ⟨S8, .f32⟩
  | 45 => ⟨S1x8x1x1, .f32⟩
  | 46 => ⟨S1x8x1x1, .f32⟩
  | 47 => ⟨S2x1x2048x2048, .f32⟩
  | 48 => ⟨S2x8x2048x2048, .f32⟩
  | 49 => ⟨S2x8x2048x2048, .f32⟩
  | 50 => ⟨S2x8x2048x2048, .f32⟩
  | 51 => ⟨S2x8x2048x2048, .f32⟩
  | 52 => ⟨S2x8x2048x2048, .f32⟩
  | 53 => ⟨S2x8x2048x2048, .f32⟩
  | 54 => ⟨S2x8x2048x2048, .f32⟩
  | 55 => ⟨S1x8, .f32⟩
  | 56 => ⟨S8, .f32⟩
  | 57 => ⟨S1x8x1x1, .f32⟩
  | 58 => ⟨S1x8, .f32⟩
  | 59 => ⟨S8, .f32⟩
  | 60 => ⟨S1x8x1x1, .f32⟩
  | 61 => ⟨S1x8x1x1, .f32⟩
  | 62 => ⟨S2x1x2048x2048, .f32⟩
  | 63 => ⟨S2x8x2048x2048, .f32⟩
  | 64 => ⟨S2x8x2048x2048, .f32⟩
  | 65 => ⟨S2x8x2048x2048, .f32⟩
  | 66 => ⟨S2x8x2048x2048, .f32⟩
  | 67 => ⟨S2x8x2048x2048, .f32⟩
  | 68 => ⟨S2x8x2048x2048, .f32⟩
  | 69 => ⟨S2x8x2048x2048, .f32⟩
  | 70 => ⟨S1x8, .f32⟩
  | 71 => ⟨S8, .f32⟩
  | 72 => ⟨S1x8x1x1, .f32⟩
  | 73 => ⟨S1x8, .f32⟩
  | 74 => ⟨S8, .f32⟩
  | 75 => ⟨S1x8x1x1, .f32⟩
  | 76 => ⟨S1x8x1x1, .f32⟩
  | 77 => ⟨S2x1x2048x2048, .f32⟩
  | 78 => ⟨S2x8x2048x2048, .f32⟩
  | 79 => ⟨S2x8x2048x2048, .f32⟩
  | 80 => ⟨S2x8x2048x2048, .f32⟩
  | 81 => ⟨S2x8x2048x2048, .f32⟩
  | 82 => ⟨S2x8x2048x2048, .f32⟩
  | 83 => ⟨S2x8x2048x2048, .f32⟩
  | 84 => ⟨S2x8x2048x2048, .f32⟩
  | 85 => ⟨S1x8, .f32⟩
  | 86 => ⟨S8, .f32⟩
  | 87 => ⟨S1x8x1x1, .f32⟩
  | 88 => ⟨S1x8, .f32⟩
  | 89 => ⟨S8, .f32⟩
  | 90 => ⟨S1x8x1x1, .f32⟩
  | 91 => ⟨S1x8x1x1, .f32⟩
  | 92 => ⟨S2x1x2048x2048, .f32⟩
  | 93 => ⟨S2x8x2048x2048, .f32⟩
  | 94 => ⟨S2x8x2048x2048, .f32⟩
  | 95 => ⟨S2x8x2048x2048, .f32⟩
  | 96 => ⟨S2x8x2048x2048, .f32⟩
  | 97 => ⟨S2x8x2048x2048, .f32⟩
  | 98 => ⟨S2x8x2048x2048, .f32⟩
  | 99 => ⟨S2x8x2048x2048, .f32⟩
  | 100 => ⟨S1x8, .f32⟩
  | 101 => ⟨S8, .f32⟩
  | 102 => ⟨S1x8x1x1, .f32⟩
  | 103 => ⟨S1x8, .f32⟩
  | 104 => ⟨S8, .f32⟩
  | 105 => ⟨S1x8x1x1, .f32⟩
  | 106 => ⟨S1x8x1x1, .f32⟩
  | 107 => ⟨S2x1x2048x2048, .f32⟩
  | 108 => ⟨S2x8x2048x2048, .f32⟩
  | 109 => ⟨S2x8x2048x2048, .f32⟩
  | 110 => ⟨S2x8x2048x2048, .f32⟩
  | 111 => ⟨S2x8x2048x2048, .f32⟩
  | 112 => ⟨S2x8x2048x2048, .f32⟩
  | 113 => ⟨S2x8x2048x2048, .f32⟩
  | 114 => ⟨S2x8x2048x2048, .f32⟩
  | 115 => ⟨S1x8, .f32⟩
  | 116 => ⟨S8, .f32⟩
  | 117 => ⟨S1x8x1x1, .f32⟩
  | 118 => ⟨S1x8, .f32⟩
  | 119 => ⟨S8, .f32⟩
  | 120 => ⟨S1x8x1x1, .f32⟩
  | 121 => ⟨S1x8x1x1, .f32⟩
  | 122 => ⟨S2x1x2048x2048, .f32⟩
  | 123 => ⟨S2x8x2048x2048, .f32⟩
  | 124 => ⟨S2x8x2048x2048, .f32⟩
  | 125 => ⟨S2x8x2048x2048, .f32⟩
  | 126 => ⟨S2x8x2048x2048, .f32⟩
  | 127 => ⟨S2x8x2048x2048, .f32⟩
  | _ => ⟨S2x8x2048x2048, .f32⟩

abbrev hbmTy0_1 (i : Nat) : BufTy := match i % 128 with
  | 0 => ⟨S2x8x2048x2048, .f32⟩
  | 1 => ⟨S2x8x2048x2048, .f32⟩
  | 2 => ⟨S1x8, .f32⟩
  | 3 => ⟨S8, .f32⟩
  | 4 => ⟨S1x8x1x1, .f32⟩
  | 5 => ⟨S1x8, .f32⟩
  | 6 => ⟨S8, .f32⟩
  | 7 => ⟨S1x8x1x1, .f32⟩
  | 8 => ⟨S1x8x1x1, .f32⟩
  | 9 => ⟨S2x1x2048x2048, .f32⟩
  | 10 => ⟨S2x8x2048x2048, .f32⟩
  | 11 => ⟨S2x8x2048x2048, .f32⟩
  | 12 => ⟨S2x8x2048x2048, .f32⟩
  | 13 => ⟨S2x8x2048x2048, .f32⟩
  | 14 => ⟨S2x8x2048x2048, .f32⟩
  | 15 => ⟨S2x8x2048x2048, .f32⟩
  | 16 => ⟨S2x8x2048x2048, .f32⟩
  | _ => ⟨S2x8x2048x2048, .f32⟩

abbrev hbmTy (i : Nat) : BufTy := match i / 128 with
  | 0 => hbmTy0_0 i
  | 1 => hbmTy0_1 i
  | _ => ⟨S2x8x2048x2048, .f32⟩

abbrev bufTy : (tb : Table) → Fin (tcTables nBuf tb) → BufTy
  | .hbm, ⟨i, _⟩ => hbmTy i
  | _, _ => ⟨S2x8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩

abbrev nD : Nat := 1
abbrev τ : Topo := Topo.v7x

variable {F : FTy → Type} [FloatOps F]

class Facts₀ : Prop where
  bcast_S2x2048x3_S2x2048x1x3_0_1_3 : S2x2048x3.BroadcastsInDim S2x2048x1x3 (![0, 1, 3] : Fin 3 → Fin S2x2048x1x3.rank)
  bcast_S2x2048x3_S2x1x2048x3_0_2_3 : S2x2048x3.BroadcastsInDim S2x1x2048x3 (![0, 2, 3] : Fin 3 → Fin S2x1x2048x3.rank)
  bcast_S2x2048x1x3_S2x2048x2048x3_0_1_2_3 : S2x2048x1x3.BroadcastsInDim S2x2048x2048x3 (![0, 1, 2, 3] : Fin 4 → Fin S2x2048x2048x3.rank)
  bcast_S2x1x2048x3_S2x2048x2048x3_0_1_2_3 : S2x1x2048x3.BroadcastsInDim S2x2048x2048x3 (![0, 1, 2, 3] : Fin 4 → Fin S2x2048x2048x3.rank)
  reducesTo_S2x2048x2048x3_S2x2048x2048_d3 : S2x2048x2048x3.ReducesTo [3] S2x2048x2048
  h_S_ : 0 < S_.numel
  bcast_S2x2048x1_S2x2048x1x1_0_1_3 : S2x2048x1.BroadcastsInDim S2x2048x1x1 (![0, 1, 3] : Fin 3 → Fin S2x2048x1x1.rank)
  bcast_S2x2048x1_S2x1x2048x1_0_2_3 : S2x2048x1.BroadcastsInDim S2x1x2048x1 (![0, 2, 3] : Fin 3 → Fin S2x1x2048x1.rank)
  bcast_S2x2048x1x1_S2x2048x2048x1_0_1_2_3 : S2x2048x1x1.BroadcastsInDim S2x2048x2048x1 (![0, 1, 2, 3] : Fin 4 → Fin S2x2048x2048x1.rank)
  bcast_S2x1x2048x1_S2x2048x2048x1_0_1_2_3 : S2x1x2048x1.BroadcastsInDim S2x2048x2048x1 (![0, 1, 2, 3] : Fin 4 → Fin S2x2048x2048x1.rank)
  reducesTo_S2x2048x2048x1_S2x2048x2048_d3 : S2x2048x2048x1.ReducesTo [3] S2x2048x2048
  slices_S4x8_S1x8_0_0 : S4x8.Slices ![0, 0] S1x8
  shapeCasts_S1x8_S8 : S1x8.ShapeCasts S8
  bcast_S8_S1x8x1x1_1 : S8.BroadcastsInDim S1x8x1x1 (![1] : Fin 1 → Fin S1x8x1x1.rank)
  bcast_S2x2048x2048_S2x1x2048x2048_0_2_3 : S2x2048x2048.BroadcastsInDim S2x1x2048x2048 (![0, 2, 3] : Fin 3 → Fin S2x1x2048x2048.rank)
  bcast_S1x8x1x1_S2x8x2048x2048_0_1_2_3 : S1x8x1x1.BroadcastsInDim S2x8x2048x2048 (![0, 1, 2, 3] : Fin 4 → Fin S2x8x2048x2048.rank)
  bcast_S2x1x2048x2048_S2x8x2048x2048_0_1_2_3 : S2x1x2048x2048.BroadcastsInDim S2x8x2048x2048 (![0, 1, 2, 3] : Fin 4 → Fin S2x8x2048x2048.rank)
  slices_S4x8_S1x8_1_0 : S4x8.Slices ![1, 0] S1x8
  slices_S4x8_S1x8_2_0 : S4x8.Slices ![2, 0] S1x8
  slices_S4x8_S1x8_3_0 : S4x8.Slices ![3, 0] S1x8

variable [Facts₀]

class Facts : Prop extends Facts₀ where

variable [Facts]
-- ==== Proof.LibRbfBias.lean ====
/-
  A score biased by per-head radial-basis terms, as a function of whole arrays over the extended reals.

  For a batch entry `b`, a head `h`, a query row `q` and a key row `k` the value is

      score[b,h,q,k] + Σ_{n<4} αs[n,h]·exp(−βs[n,h]·dS) + Σ_{n<4} αt[n,h]·exp(−βt[n,h]·dT)

  where `dS = Σ_{d<3} (qs[b,q,d] − ks[b,k,d])²` is the squared distance of the two rows in a three-feature space and
  `dT = (qt[b,q,0] − kt[b,k,0])²` the one in a one-feature space. The sums are written out term by term, grouped to
  the left, over any batch size `B`, head count `H` and row counts `Q`, `K`; so the same definition reads one
  block of the arrays (`B = 1`, 256 rows) and the whole arrays.

  Two spellings of it meet here. One starts every sum from a zero and adds the finished bias to the score, and
  writes `−β` as `0 − β`; the other adds term after term onto the score and starts each distance from a zero.
  On the extended reals `0 + x = x`, `0 − x = −x`, and addition is associative, whatever is infinite: the laws
  below (`bias_grouping`, `dist3_from_zero`, `zero_sub_mul`) are all that joins the two, and none needs a finite
  input.
-/
import Idealize.ShloMosaic.PureOps.Ideal
import Idealize.ShloMosaic.PureOps.Ideal.Laws
import Idealize.ShloMosaic.Lib.ValueIdx

noncomputable section

namespace Cert.RbfBias

open Idealize.ShloMosaic Idealize.ShloMosaic.ValueIdx

/-- The square of a difference. -/
def sqd (x y : EReal) : EReal := (x - y) * (x - y)

/-- One radial-basis term `α·exp(−β·d)`. -/
def rbf (a b d : EReal) : EReal := a * Ideal.exp (-b * d)

variable {B H Q K : Nat}

/-- The squared distance of query row `q` and key row `k` of batch entry `b` over three features, summed left to right. -/
def distS (qs : FVec Ideal ⟨3, ![B, Q, 3]⟩ .f32) (ks : FVec Ideal ⟨3, ![B, K, 3]⟩ .f32) (b : Fin B) (q : Fin Q) (k : Fin K) : EReal :=
  sqd (qs (ix3 b q 0)) (ks (ix3 b k 0)) + sqd (qs (ix3 b q 1)) (ks (ix3 b k 1)) + sqd (qs (ix3 b q 2)) (ks (ix3 b k 2))

/-- The squared distance of the two rows over one feature. -/
def distT (qt : FVec Ideal ⟨3, ![B, Q, 1]⟩ .f32) (kt : FVec Ideal ⟨3, ![B, K, 1]⟩ .f32) (b : Fin B) (q : Fin Q) (k : Fin K) : EReal :=
  sqd (qt (ix3 b q 0)) (kt (ix3 b k 0))

/-- The biased score at `(b, h, q, k)`: the score plus four terms over `distS` plus four over `distT`, the coefficient
    tables read at row `n`, column `h`; grouped to the left. -/
def biased (sc : FVec Ideal ⟨4, ![B, H, Q, K]⟩ .f32)
    (qs : FVec Ideal ⟨3, ![B, Q, 3]⟩ .f32) (ks : FVec Ideal ⟨3, ![B, K, 3]⟩ .f32)
    (qt : FVec Ideal ⟨3, ![B, Q, 1]⟩ .f32) (kt : FVec Ideal ⟨3, ![B, K, 1]⟩ .f32)
    (sa sb ta tb : FVec Ideal ⟨2, ![4, H]⟩ .f32) (b : Fin B) (h : Fin H) (q : Fin Q) (k : Fin K) : EReal :=
  sc (ix4 b h q k)
    + rbf (sa (ix2 0 h)) (sb (ix2 0 h)) (distS qs ks b q k)
    + rbf (sa (ix2 1 h)) (sb (ix2 1 h)) (distS qs ks b q k)
    + rbf (sa (ix2 2 h)) (sb (ix2 2 h)) (distS qs ks b q k)
    + rbf (sa (ix2 3 h)) (sb (ix2 3 h)) (distS qs ks b q k)
    + rbf (ta (ix2 0 h)) (tb (ix2 0 h)) (distT qt kt b q k)
    + rbf (ta (ix2 1 h)) (tb (ix2 1 h)) (distT qt kt b q k)
    + rbf (ta (ix2 2 h)) (tb (ix2 2 h)) (distT qt kt b q k)
    + rbf (ta (ix2 3 h)) (tb (ix2 3 h)) (distT qt kt b q k)

/-- The biased score as one whole array [B, H, Q, K]. -/
def biasedArr (sc : FVec Ideal ⟨4, ![B, H, Q, K]⟩ .f32)
    (qs : FVec Ideal ⟨3, ![B, Q, 3]⟩ .f32) (ks : FVec Ideal ⟨3, ![B, K, 3]⟩ .f32)
    (qt : FVec Ideal ⟨3, ![B, Q, 1]⟩ .f32) (kt : FVec Ideal ⟨3, ![B, K, 1]⟩ .f32)
    (sa sb ta tb : FVec Ideal ⟨2, ![4, H]⟩ .f32) : FVec Ideal ⟨4, ![B, H, Q, K]⟩ .f32 :=
  fun i => biased sc qs ks qt kt sa sb ta tb (i 0) (i 1) (i 2) (i 3)

theorem biasedArr_apply (sc : FVec Ideal ⟨4, ![B, H, Q, K]⟩ .f32)
    (qs : FVec Ideal ⟨3, ![B, Q, 3]⟩ .f32) (ks : FVec Ideal ⟨3, ![B, K, 3]⟩ .f32)
    (qt : FVec Ideal ⟨3, ![B, Q, 1]⟩ .f32) (kt : FVec Ideal ⟨3, ![B, K, 1]⟩ .f32)
    (sa sb ta tb : FVec Ideal ⟨2, ![4, H]⟩ .f32) (b : Fin B) (h : Fin H) (q : Fin Q) (k : Fin K) :
    biasedArr sc qs ks qt kt sa sb ta tb (ix4 b h q k) = biased sc qs ks qt kt sa sb ta tb b h q k := rfl

/-! ## The laws that join the two spellings -/

/-- A bias summed from zero and then added to the score is the score with the terms added one after another. -/
theorem bias_grouping (x s0 s1 s2 s3 t0 t1 t2 t3 : EReal) :
    x + ((((((((0 + s0) + s1) + s2) + s3) + t0) + t1) + t2) + t3) = x + s0 + s1 + s2 + s3 + t0 + t1 + t2 + t3 := by
  simp only [zero_add, add_assoc]

/-- A three-term sum started from zero. -/
theorem dist3_from_zero (a b c : EReal) : ((0 + a) + b) + c = a + b + c := by rw [zero_add]

/-- `0 − β` is `−β` on the extended reals, also at an infinite `β`. -/
theorem zero_sub_mul (b d : EReal) : (0 - b) * d = -b * d := by rw [zero_sub]

/-- The biased score depends on the arrays only through the entries it reads: two families of arrays that agree,
    entry by entry, along a re-indexing of the batch entry and of the rows give the same value. (This is how one
    block of the arrays is set against the whole arrays.) -/
theorem biased_congr {B' Q' K' : Nat}
    (sc : FVec Ideal ⟨4, ![B, H, Q, K]⟩ .f32) (qs : FVec Ideal ⟨3, ![B, Q, 3]⟩ .f32) (ks : FVec Ideal ⟨3, ![B, K, 3]⟩ .f32)
    (qt : FVec Ideal ⟨3, ![B, Q, 1]⟩ .f32) (kt : FVec Ideal ⟨3, ![B, K, 1]⟩ .f32) (sa sb ta tb : FVec Ideal ⟨2, ![4, H]⟩ .f32)
    (sc' : FVec Ideal ⟨4, ![B', H, Q', K']⟩ .f32) (qs' : FVec Ideal ⟨3, ![B', Q', 3]⟩ .f32) (ks' : FVec Ideal ⟨3, ![B', K', 3]⟩ .f32)
    (qt' : FVec Ideal ⟨3, ![B', Q', 1]⟩ .f32) (kt' : FVec Ideal ⟨3, ![B', K', 1]⟩ .f32) (sa' sb' ta' tb' : FVec Ideal ⟨2, ![4, H]⟩ .f32)
    (b : Fin B) (b' : Fin B') (fq : Fin Q → Fin Q') (fk : Fin K → Fin K')
    (hsc : ∀ h q k, sc (ix4 b h q k) = sc' (ix4 b' h (fq q) (fk k)))
    (hqs : ∀ q d, qs (ix3 b q d) = qs' (ix3 b' (fq q) d)) (hks : ∀ k d, ks (ix3 b k d) = ks' (ix3 b' (fk k) d))
    (hqt : ∀ q d, qt (ix3 b q d) = qt' (ix3 b' (fq q) d)) (hkt : ∀ k d, kt (ix3 b k d) = kt' (ix3 b' (fk k) d))
    (hsa : ∀ n h, sa (ix2 n h) = sa' (ix2 n h)) (hsb : ∀ n h, sb (ix2 n h) = sb' (ix2 n h))
    (hta : ∀ n h, ta (ix2 n h) = ta' (ix2 n h)) (htb : ∀ n h, tb (ix2 n h) = tb' (ix2 n h))
    (h : Fin H) (q : Fin Q) (k : Fin K) :
    biased sc qs ks qt kt sa sb ta tb b h q k = biased sc' qs' ks' qt' kt' sa' sb' ta' tb' b' h (fq q) (fk k) := by
  unfold biased distS distT
  rw [hsc, hqs, hqs, hqs, hks, hks, hks, hqt, hkt, hsa, hsa, hsa, hsa, hsb, hsb, hsb, hsb, hta, hta, hta, hta,
    htb, htb, htb, htb]

end Cert.RbfBias

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibHeadAxisLayouts.lean ====
/-
  Re-layings around a leading "head" axis, each read at one entry, over any sizes and any element type.

  A per-head coefficient reaches a [h, a, b] block in three steps: a row [1, h] of a table is cast to a vector
  [h], the vector to [h, 1, 1], and that is broadcast over the two trailing axes. A per-(row, column) value reaches
  the same block by a cast [a, b] to [1, a, b] (read in the library) and a broadcast along the leading axis. Beside
  them: a column [a, 1] cast to a vector [a], and a block [1, h, a, b] cast to [h, a, b] and back.

  * `vecOfRow_apply`      [1, b] as a vector at q is the row at (0, q).
  * `vecOfCol_apply`      [a, 1] as a vector at p is the column at (p, 0).
  * `headCast_apply`      a vector [h] as [h, 1, 1] at (p, 0, 0) is entry p.
  * `headBroadcast_apply` [h, 1, 1] broadcast to [h, a, b] at (p, q, k) is the operand at (p, 0, 0).
  * `planeBroadcast_apply` [1, a, b] broadcast to [h, a, b] at (p, q, k) is the operand at (0, q, k).
  * `dropLead4_apply`     [1, h, a, b] as [h, a, b] at (p, q, k) is the operand at (0, p, q, k).
  * `addLead4_apply`      [h, a, b] as [1, h, a, b] at (0, p, q, k) is the operand at (p, q, k).
-/
import Idealize.ShloMosaic.Lib.Pipeline.Value
import Idealize.ShloMosaic.Lib.ValueIdx

noncomputable section

namespace Cert.HeadAxisLayouts

open Idealize.ShloMosaic Idealize.ShloMosaic.ValueIdx

/-- A row [1, b] cast to a vector reads, at q, the row at (0, q). -/
theorem vecOfRow_apply {α : Type} {b : ℕ} (w : (⟨2, ![1, b]⟩ : Shape).Idx → α)
    (hc : (⟨2, ![1, b]⟩ : Shape).ShapeCasts ⟨1, ![b]⟩) (q : Fin b) :
    shapeCast ⟨1, ![b]⟩ w hc (ix1 q) = w (ix2 (0 : Fin 1) q) := by
  refine shapeCast_apply w hc (ix1 q) (ix2 (0 : Fin 1) q) ?_
  rw [Shape.rowMajor_val_one, Shape.rowMajor_val_two]
  show 0 * b + q.val = q.val
  rw [Nat.zero_mul, Nat.zero_add]

/-- A column [a, 1] cast to a vector reads, at p, the column at (p, 0). -/
theorem vecOfCol_apply {α : Type} {a : ℕ} (w : (⟨2, ![a, 1]⟩ : Shape).Idx → α)
    (hc : (⟨2, ![a, 1]⟩ : Shape).ShapeCasts ⟨1, ![a]⟩) (p : Fin a) :
    shapeCast ⟨1, ![a]⟩ w hc (ix1 p) = w (ix2 p (0 : Fin 1)) := by
  refine shapeCast_apply w hc (ix1 p) (ix2 p (0 : Fin 1)) ?_
  rw [Shape.rowMajor_val_one, Shape.rowMajor_val_two]
  show p.val * 1 + 0 = p.val
  rw [Nat.mul_one, Nat.add_zero]

/-- A vector [h] cast to [h, 1, 1] reads, at (p, 0, 0), entry p. -/
theorem headCast_apply {α : Type} {h : ℕ} (u : (⟨1, ![h]⟩ : Shape).Idx → α)
    (hc : (⟨1, ![h]⟩ : Shape).ShapeCasts ⟨3, ![h, 1, 1]⟩) (p : Fin h) (z z' : Fin 1) :
    shapeCast ⟨3, ![h, 1, 1]⟩ u hc (ix3 p z z') = u (ix1 p) := by
  refine shapeCast_apply u hc (ix3 p z z') (ix1 p) ?_
  rw [Shape.rowMajor_val_one, Shape.rowMajor_val_three]
  show p.val = (p.val * 1 + z.val) * 1 + z'.val
  have := z.isLt
  have := z'.isLt
  omega

/-- [h, 1, 1] broadcast over the two trailing axes reads, at (p, q, k), the operand at (p, 0, 0). -/
theorem headBroadcast_apply {α : Type} {h a b : ℕ} (w : (⟨3, ![h, 1, 1]⟩ : Shape).Idx → α)
    (hb : (⟨3, ![h, 1, 1]⟩ : Shape).Broadcasts ⟨3, ![h, a, b]⟩) (p : Fin h) (q : Fin a) (k : Fin b) :
    broadcastTo ⟨3, ![h, a, b]⟩ w hb (ix3 p q k) = w (ix3 p (0 : Fin 1) (0 : Fin 1)) := by
  refine broadcastTo_apply w hb (ix3 p q k) (ix3 p (0 : Fin 1) (0 : Fin 1)) fun c => ?_
  match c with
  | ⟨0, _⟩ =>
    show p.val = if h = 1 then 0 else p.val
    split
    · have := p.isLt; omega
    · rfl
  | ⟨1, _⟩ => exact (if_pos rfl).symm
  | ⟨2, _⟩ => exact (if_pos rfl).symm

/-- [1, a, b] broadcast along the leading axis reads, at (p, q, k), the operand at (0, q, k). -/
theorem planeBroadcast_apply {α : Type} {h a b : ℕ} (w : (⟨3, ![1, a, b]⟩ : Shape).Idx → α)
    (hb : (⟨3, ![1, a, b]⟩ : Shape).Broadcasts ⟨3, ![h, a, b]⟩) (p : Fin h) (q : Fin a) (k : Fin b) :
    broadcastTo ⟨3, ![h, a, b]⟩ w hb (ix3 p q k) = w (ix3 (0 : Fin 1) q k) := by
  refine broadcastTo_apply w hb (ix3 p q k) (ix3 (0 : Fin 1) q k) fun c => ?_
  match c with
  | ⟨0, _⟩ => exact (if_pos rfl).symm
  | ⟨1, _⟩ =>
    show q.val = if a = 1 then 0 else q.val
    split
    · have := q.isLt; omega
    · rfl
  | ⟨2, _⟩ =>
    show k.val = if b = 1 then 0 else k.val
    split
    · have := k.isLt; omega
    · rfl

/-- [1, h, a, b] cast to [h, a, b] reads, at (p, q, k), the operand at (0, p, q, k). -/
theorem dropLead4_apply {α : Type} {h a b : ℕ} (x : (⟨4, ![1, h, a, b]⟩ : Shape).Idx → α)
    (hc : (⟨4, ![1, h, a, b]⟩ : Shape).ShapeCasts ⟨3, ![h, a, b]⟩) (p : Fin h) (q : Fin a) (k : Fin b) :
    shapeCast ⟨3, ![h, a, b]⟩ x hc (ix3 p q k) = x (ix4 (0 : Fin 1) p q k) := by
  refine shapeCast_apply x hc (ix3 p q k) (ix4 (0 : Fin 1) p q k) ?_
  rw [Shape.rowMajor_val_four, Shape.rowMajor_val_three]
  show ((0 * h + p.val) * a + q.val) * b + k.val = (p.val * a + q.val) * b + k.val
  rw [Nat.zero_mul, Nat.zero_add]

/-- [h, a, b] cast to [1, h, a, b] reads, at (0, p, q, k), the operand at (p, q, k). -/
theorem addLead4_apply {α : Type} {h a b : ℕ} (x : (⟨3, ![h, a, b]⟩ : Shape).Idx → α)
    (hc : (⟨3, ![h, a, b]⟩ : Shape).ShapeCasts ⟨4, ![1, h, a, b]⟩) (z : Fin 1) (p : Fin h) (q : Fin a) (k : Fin b) :
    shapeCast ⟨4, ![1, h, a, b]⟩ x hc (ix4 z p q k) = x (ix3 p q k) := by
  refine shapeCast_apply x hc (ix4 z p q k) (ix3 p q k) ?_
  rw [Shape.rowMajor_val_four, Shape.rowMajor_val_three]
  show (p.val * a + q.val) * b + k.val = ((z.val * h + p.val) * a + q.val) * b + k.val
  have hz : z.val = 0 := by have := z.isLt; omega
  rw [hz, Nat.zero_mul, Nat.zero_add]

end Cert.HeadAxisLayouts

end
-- ==== Proof.KernelBody.lean ====
/-
  What the kernel's body leaves in one block of its output, read at one entry.

  The body loads a [1, 8, 256, 256] block of the score, the [1, 256, 3] blocks of the query and key features of the
  three-feature space, the [1, 256, 1] blocks of the one-feature space, and rows 0 … 3 of the four [4, 8] coefficient
  tables, and stores one [1, 8, 256, 256] block. Its arithmetic is made of two shapes only, each used several times:

  * a squared feature difference: feature d of the query rows laid as a column [256, 1] and broadcast along the
    lanes, minus feature d of the key rows laid as a row [1, 256] and broadcast down the sublanes, times itself
    (`featCol`, `featRow`, `diffSq`); at (q, k) this is (qs[q, d] − ks[k, d])²;
  * a per-head term: a table row laid as [8, 1, 1] (`headCol`) and broadcast over the block, times the exponential of
    (0 − another such row) times a [256, 256] distance map broadcast along the head axis (`headTerm`); at (h, q, k)
    this is α[h]·exp((0 − β[h])·D[q, k]).

  The payload functions of the generated skeleton are compositions of these (the `pay…_eq` lemmas, by unfolding), so
  the stored block at (0, h, q, k) is the biased score of Proof/LibRbfBias.lean over the loaded blocks
  (`block_value`): the three squared differences are summed from a zero, the eight terms are summed from a zero
  and added to the score, and 0 − β is −β.
-/
import proofs.«108492_j17781164605640_2_alg».proof.Proof.Gen.KernelIdeal.Frame
import proofs.«108492_j17781164605640_2_alg».proof.Proof.LibRbfBias
import proofs.«108492_j17781164605640_2_alg».proof.Proof.LibColRowBroadcast
import proofs.«108492_j17781164605640_2_alg».proof.Proof.LibHeadAxisLayouts
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.TcCoe
open Cert.RbfBias Cert.ColRowBroadcast Cert.HeadAxisLayouts

/-! ## The two shapes, for any float instance -/

section Shapes

variable {F : FTy → Type} [FloatOps F]

/-- Feature `o` of the rows of a [256, 3] table as a column, broadcast along the lanes. -/
def featCol (o : Nat) (hs : S256x3.Slices ![0, o] S256x1) (v : FVec F S256x3 .f32) : FVec F S256x256 .f32 :=
  broadcastTo S256x256 (shapeCast S256x1 (shapeCast S256 (extractStridedSlice S256x1 ![0, o] v hs) shapeCasts_S256x1_S256) shapeCasts_S256_S256x1) broadcasts_S256x1_S256x256

/-- Feature `o` of the rows of a [256, 3] table as a row, broadcast down the sublanes. -/
def featRow (o : Nat) (hs : S256x3.Slices ![0, o] S256x1) (v : FVec F S256x3 .f32) : FVec F S256x256 .f32 :=
  broadcastTo S256x256 (shapeCast S1x256 (shapeCast S256 (extractStridedSlice S256x1 ![0, o] v hs) shapeCasts_S256x1_S256) shapeCasts_S256_S1x256) broadcasts_S1x256_S256x256

/-- A vector [256] as a column broadcast along the lanes, and as a row broadcast down the sublanes. -/
def vecCol (v : FVec F S256 .f32) : FVec F S256x256 .f32 :=
  broadcastTo S256x256 (shapeCast S256x1 v shapeCasts_S256_S256x1) broadcasts_S256x1_S256x256
def vecRow (v : FVec F S256 .f32) : FVec F S256x256 .f32 :=
  broadcastTo S256x256 (shapeCast S1x256 v shapeCasts_S256_S1x256) broadcasts_S1x256_S256x256

/-- The square of a difference of two maps. -/
def diffSq (c r : FVec F S256x256 .f32) : FVec F S256x256 .f32 := mulf (subf c r) (subf c r)

/-- A row of a coefficient table laid along the head axis, [8, 1, 1]. -/
def headCol (r : Vec F S1x8 .f32) : FVec F S8x1x1 .f32 :=
  shapeCast S8x1x1 (shapeCast S8 r shapeCasts_S1x8_S8) shapeCasts_S8_S8x1x1

/-- One per-head term over a distance map: α·exp((0 − β)·D), every factor broadcast to the block. -/
def headTerm (a b : FVec F S8x1x1 .f32) (D : FVec F S256x256 .f32) : FVec F S8x256x256 .f32 :=
  mulf (broadcastTo S8x256x256 a broadcasts_S8x1x1_S8x256x256)
    (exp (mulf (broadcastTo S8x256x256 (subf (broadcast S8x1x1 (Scalar.ofBits .f32 0x00000000#32)) b) broadcasts_S8x1x1_S8x256x256)
      (broadcastTo S8x256x256 (shapeCast S1x256x256 D shapeCasts_S256x256_S1x256x256) broadcasts_S1x256x256_S8x256x256)))

/-! The generated payload functions are compositions of these. -/

theorem pay2_eq (v0 v2 : Vec F S1x256x3 .f32) :
    k0_pay2 v0 v2 = addf (addf (addf (broadcast S256x256 (Scalar.ofBits .f32 0x00000000#32))
      (diffSq (featCol 0 slices_S256x3_o0_0_S256x1 (shapeCast S256x3 v0 shapeCasts_S1x256x3_S256x3))
        (featRow 0 slices_S256x3_o0_0_S256x1 (shapeCast S256x3 v2 shapeCasts_S1x256x3_S256x3))))
      (diffSq (featCol 1 slices_S256x3_o0_1_S256x1 (shapeCast S256x3 v0 shapeCasts_S1x256x3_S256x3))
        (featRow 1 slices_S256x3_o0_1_S256x1 (shapeCast S256x3 v2 shapeCasts_S1x256x3_S256x3))))
      (diffSq (featCol 2 slices_S256x3_o0_2_S256x1 (shapeCast S256x3 v0 shapeCasts_S1x256x3_S256x3))
        (featRow 2 slices_S256x3_o0_2_S256x1 (shapeCast S256x3 v2 shapeCasts_S1x256x3_S256x3))) := rfl

theorem pay3_eq (v : Vec F S1x256x1 .f32) :
    k0_pay3 v = shapeCast S256 (shapeCast S256x1 v shapeCasts_S1x256x1_S256x1) shapeCasts_S256x1_S256 := rfl

theorem pay4_eq (v : Vec F S1x256x1 .f32) :
    k0_pay4 v = shapeCast S256 (shapeCast S256x1 v shapeCasts_S1x256x1_S256x1) shapeCasts_S256x1_S256 := rfl

theorem pay5_eq (u w : FVec F S256 .f32) : k0_pay5 u w = diffSq (vecCol u) (vecRow w) := rfl

theorem pay6_eq (D : FVec F S256x256 .f32) (a0 b0 a1 b1 : Vec F S1x8 .f32) :
    k0_pay6 D a0 b0 a1 b1 = addf (addf (broadcast S8x256x256 (Scalar.ofBits .f32 0x00000000#32))
      (headTerm (headCol a0) (headCol b0) D)) (headTerm (headCol a1) (headCol b1) D) := rfl

theorem pay7_eq (r : Vec F S1x8 .f32) : k0_pay7 r = headCol r := rfl
theorem pay8_eq (r : Vec F S1x8 .f32) : k0_pay8 r = headCol r := rfl
theorem pay10_eq (r : Vec F S1x8 .f32) : k0_pay10 r = headCol r := rfl

theorem pay9_eq (D Dt : FVec F S256x256 .f32) (acc : FVec F S8x256x256 .f32) (a2 b2 : FVec F S8x1x1 .f32)
    (a3 b3 a4 b4 : Vec F S1x8 .f32) :
    k0_pay9 D Dt acc a2 b2 a3 b3 a4 b4 = addf (addf (addf acc (headTerm a2 b2 D))
      (headTerm (headCol a3) (headCol b3) D)) (headTerm (headCol a4) (headCol b4) Dt) := rfl

theorem pay11_eq (Dt : FVec F S256x256 .f32) (acc : FVec F S8x256x256 .f32) (a5 : FVec F S8x1x1 .f32)
    (b5 a6 b6 a7 b7 : Vec F S1x8 .f32) :
    k0_pay11 Dt acc a5 b5 a6 b6 a7 b7 = addf (addf (addf acc (headTerm a5 (headCol b5) Dt))
      (headTerm (headCol a6) (headCol b6) Dt)) (headTerm (headCol a7) (headCol b7) Dt) := rfl

theorem pay1_eq (bias : FVec F S8x256x256 .f32) (sc : Vec F S1x8x256x256 .f32) :
    k0_pay1 bias sc = shapeCast S1x8x256x256 (addf (shapeCast S8x256x256 sc shapeCasts_S1x8x256x256_S8x256x256) bias)
      shapeCasts_S8x256x256_S1x8x256x256 := rfl

/-! The re-layings read at one entry. -/

theorem featCol_apply (o : Nat) (hs : S256x3.Slices ![0, o] S256x1) (v : FVec F S256x3 .f32) (d : Fin 3)
    (hd : d.val = o) (q k : Fin 256) : featCol o hs v (ix2 q k) = v (ix2 q d) := by
  unfold featCol
  rw [colBroadcast_apply, colCast_apply, vecOfCol_apply]
  exact slice2_axis1_apply o v hs q (0 : Fin 1) d (by rw [hd]; rfl)

theorem featRow_apply (o : Nat) (hs : S256x3.Slices ![0, o] S256x1) (v : FVec F S256x3 .f32) (d : Fin 3)
    (hd : d.val = o) (q k : Fin 256) : featRow o hs v (ix2 q k) = v (ix2 k d) := by
  unfold featRow
  rw [rowBroadcast_apply, rowCast_apply, vecOfCol_apply]
  exact slice2_axis1_apply o v hs k (0 : Fin 1) d (by rw [hd]; rfl)

theorem vecCol_apply (v : FVec F S256 .f32) (q k : Fin 256) : vecCol v (ix2 q k) = v (ix1 q) := by
  unfold vecCol
  rw [colBroadcast_apply, colCast_apply]

theorem vecRow_apply (v : FVec F S256 .f32) (q k : Fin 256) : vecRow v (ix2 q k) = v (ix1 k) := by
  unfold vecRow
  rw [rowBroadcast_apply, rowCast_apply]

/-- A [1, 256, 1] block as a vector: at q, the block at (0, q, 0). -/
theorem flat_apply (v : Vec F S1x256x1 .f32) (q : Fin 256) :
    shapeCast S256 (shapeCast S256x1 v shapeCasts_S1x256x1_S256x1) shapeCasts_S256x1_S256 (ix1 q) = v (ix3 (0 : Fin 1) q (0 : Fin 1)) := by
  rw [vecOfCol_apply, shapeCast_1ab_ab_apply]

theorem headCol_apply (r : Vec F S1x8 .f32) (h : Fin 8) : headCol r (ix3 h (0 : Fin 1) (0 : Fin 1)) = r (ix2 (0 : Fin 1) h) := by
  unfold headCol
  rw [headCast_apply, vecOfRow_apply]

end Shapes

/-! ## The arithmetic, on the extended reals -/

theorem diffSq_apply (c r : FVec Ideal S256x256 .f32) (j : S256x256.Idx) : diffSq c r j = sqd (c j) (r j) := rfl

theorem headTerm_apply (a b : FVec Ideal S8x1x1 .f32) (D : FVec Ideal S256x256 .f32) (h : Fin 8) (q k : Fin 256) :
    headTerm a b D (ix3 h q k) = rbf (a (ix3 h (0 : Fin 1) (0 : Fin 1))) (b (ix3 h (0 : Fin 1) (0 : Fin 1))) (D (ix2 q k)) := by
  show broadcastTo S8x256x256 a broadcasts_S8x1x1_S8x256x256 (ix3 h q k)
      * Ideal.exp (broadcastTo S8x256x256 (subf (broadcast S8x1x1 (Scalar.ofBits .f32 0x00000000#32)) b) broadcasts_S8x1x1_S8x256x256 (ix3 h q k)
        * broadcastTo S8x256x256 (shapeCast S1x256x256 D shapeCasts_S256x256_S1x256x256) broadcasts_S1x256x256_S8x256x256 (ix3 h q k)) = _
  rw [headBroadcast_apply, headBroadcast_apply, planeBroadcast_apply, shapeCast_ab_1ab_apply]
  show a _ * Ideal.exp ((Ideal.ofBits .f32 0x00000000#32 - b _) * D _) = a _ * Ideal.exp (-b _ * D _)
  rw [Ideal.ofBits_zero_f32, zero_sub]

/-- The three-feature distance map at (q, k). -/
theorem pay2_apply (v0 v2 : Vec Ideal S1x256x3 .f32) (q k : Fin 256) :
    k0_pay2 v0 v2 (ix2 q k) = distS v0 v2 (0 : Fin 1) q k := by
  rw [pay2_eq]
  show ((Ideal.ofBits .f32 0x00000000#32
      + diffSq (featCol 0 slices_S256x3_o0_0_S256x1 (shapeCast S256x3 v0 shapeCasts_S1x256x3_S256x3)) (featRow 0 slices_S256x3_o0_0_S256x1 (shapeCast S256x3 v2 shapeCasts_S1x256x3_S256x3)) (ix2 q k))
      + diffSq (featCol 1 slices_S256x3_o0_1_S256x1 (shapeCast S256x3 v0 shapeCasts_S1x256x3_S256x3)) (featRow 1 slices_S256x3_o0_1_S256x1 (shapeCast S256x3 v2 shapeCasts_S1x256x3_S256x3)) (ix2 q k))
      + diffSq (featCol 2 slices_S256x3_o0_2_S256x1 (shapeCast S256x3 v0 shapeCasts_S1x256x3_S256x3)) (featRow 2 slices_S256x3_o0_2_S256x1 (shapeCast S256x3 v2 shapeCasts_S1x256x3_S256x3)) (ix2 q k) = _
  rw [diffSq_apply, diffSq_apply, diffSq_apply,
    featCol_apply 0 _ _ 0 rfl, featRow_apply 0 _ _ 0 rfl, featCol_apply 1 _ _ 1 rfl, featRow_apply 1 _ _ 1 rfl,
    featCol_apply 2 _ _ 2 rfl, featRow_apply 2 _ _ 2 rfl]
  simp only [shapeCast_1ab_ab_apply]
  rw [Ideal.ofBits_zero_f32]
  exact dist3_from_zero _ _ _

/-- The one-feature distance map at (q, k). -/
theorem pay5_apply (v3 v4 : Vec Ideal S1x256x1 .f32) (q k : Fin 256) :
    k0_pay5 (k0_pay3 v3) (k0_pay4 v4) (ix2 q k) = distT v3 v4 (0 : Fin 1) q k := by
  rw [pay5_eq, diffSq_apply, vecCol_apply, vecRow_apply, pay3_eq, pay4_eq, flat_apply, flat_apply]
  rfl

end Cert.KernelIdeal.Body

end
-- ==== Proof.KernelBlock.lean ====
/-
  One block of the kernel's output is the biased score of the loaded blocks.

  The body's one store covers the whole [1, 8, 256, 256] staging buffer, so what a grid point leaves there is the stored
  value itself. Its entry (0, h, q, k) is the score block's entry plus the bias at (h, q, k); the bias is the sum,
  started from a zero, of four head terms over the three-feature distance map and four over the one-feature map,
  each coefficient row loaded from row n of its [4, 8] table. Read entry by entry (Proof/KernelBody.lean) and
  regrouped (Proof/LibRbfBias.lean `bias_grouping`) this is `biased` over the loaded blocks, with batch entry 0.
-/
import proofs.«108492_j17781164605640_2_alg».proof.Proof.KernelBody
import Mathlib.Tactic.FinCases

noncomputable section

namespace Cert.KernelIdeal.Body

open Cert.KernelIdeal Cert.KernelIdeal.Gen Idealize.ShloMosaic Idealize.ShloMosaic.ValueIdx Idealize.ShloMosaic.TcCoe
open Cert.RbfBias Cert.ColRowBroadcast Cert.HeadAxisLayouts

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- Row `n` of a [4, 8] table loaded as a [1, 8] vector reads, at (0, h), the table at (n, h). -/
theorem tableRow_apply (X : Vec Ideal S4x8 .f32) (o : Nat)
    (inb : ∀ a, (![o, 0] : Fin 2 → Nat) a + S1x8.size a ≤ S4x8.size a) (n : Fin 4) (hn : n.val = o) (h : Fin 8) :
    View.ld X (Rect.unit (s := S4x8) ![o, 0] S1x8.size inb) (ix2 (0 : Fin 1) h) = X (ix2 n h) := by
  show X _ = X _
  refine congrArg X (funext fun a => Fin.ext ?_)
  match a with
  | ⟨0, _⟩ => show o + 1 * 0 = n.val; omega
  | ⟨1, _⟩ => show 0 + 1 * h.val = h.val; omega

/-- The stored block at (0, h, q, k). -/
theorem block_value (x0 : Vec Ideal S1x8x256x256 .f32) (x1 x2 : Vec Ideal S1x256x3 .f32) (x3 x4 : Vec Ideal S1x256x1 .f32)
    (x5 x6 x7 x8 : Vec Ideal S4x8 .f32) (h : Fin 8) (q k : Fin 256) :
    out0_9 x0 x1 x2 x3 x4 x5 x6 x7 x8 (ix4 (0 : Fin 1) h q k)
      = biased x0 x1 x2 x3 x4 x5 x6 x7 x8 (0 : Fin 1) h q k := by
  unfold out0_9
  rw [View.canon_unit_zero zeros4]
  simp only [View.ld_unit_zero (S := S1x8x256x256) zeros4, View.ld_unit_zero (S := S1x256x3) zeros3,
    View.ld_unit_zero (S := S1x256x1) zeros3]
  rw [pay1_eq, pay11_eq, pay9_eq, pay6_eq, pay7_eq, pay8_eq, pay10_eq]
  rw [addLead4_apply]
  simp only [ValueIdx.addf_apply, ValueIdx.broadcast_apply]
  rw [dropLead4_apply]
  simp only [headTerm_apply, headCol_apply, pay2_apply, pay5_apply]
  rw [tableRow_apply x5 0 _ 0 rfl h, tableRow_apply x6 0 _ 0 rfl h, tableRow_apply x5 1 _ 1 rfl h, tableRow_apply x6 1 _ 1 rfl h,
    tableRow_apply x5 2 _ 2 rfl h, tableRow_apply x6 2 _ 2 rfl h, tableRow_apply x5 3 _ 3 rfl h, tableRow_apply x6 3 _ 3 rfl h,
    tableRow_apply x7 0 _ 0 rfl h, tableRow_apply x8 0 _ 0 rfl h, tableRow_apply x7 1 _ 1 rfl h, tableRow_apply x8 1 _ 1 rfl h,
    tableRow_apply x7 2 _ 2 rfl h, tableRow_apply x8 2 _ 2 rfl h, tableRow_apply x7 3 _ 3 rfl h, tableRow_apply x8 3 _ 3 rfl h]
  rw [Ideal.ofBits_def, Ideal.ofBits_zero_f32]
  exact bias_grouping _ _ _ _ _ _ _ _ _

end Cert.KernelIdeal.Body

end
-- ==== Proof.KernelArray.lean ====
/-
  From blocks to the array: after the run the kernel's result array is the biased score of its argument arrays.

  The grid has 2 × 8 × 8 points (batch entry, query tile, key tile). At a point the output window's block is the
  [1, 8, 256, 256] box of the result at batch entry b, rows 256·qi … 256·qi + 255 and columns 256·ki … 256·ki + 255; the
  score's window moves with it, the query-side feature windows follow (b, qi), the key-side ones (b, ki), and the four
  coefficient tables are staged whole (`out_idx` … `tbl_idx`, the printed index maps decided over the 128 points).
  So each block the body loads is the part of its argument array under those rows (`read0` … `read8`), the block it
  stores is the part of `biasedArr` of the argument arrays under the output box (`flushed_eq`, from
  Proof/KernelBlock.lean's `block_value` and Proof/LibRbfBias.lean's `biased_congr`), the boxes cover the result array
  (`cover`: entry (b, h, r, s) lies in the box of point (b, r / 256, s / 256)), and the array after the run is
  `biasedArr` of the arguments (`final`, `run`).
-/
import proofs.«108492_j17781164605640_2_alg».proof.Proof.KernelBlock

noncomputable section

namespace Cert.KernelIdeal.ArrayValue

open Cert.KernelIdeal Cert.KernelIdeal.Gen Cert.KernelIdeal.Body
open Idealize.ShloMosaic Idealize.ShloMosaic.ValueIdx Idealize.ShloMosaic.TcCoe Idealize.SL.Sem
open Idealize.ShloMosaic.Pipeline (Dat)
open Cert.RbfBias

variable (m : (ℓ : Loc nD τ sig) → Buf (Elt Ideal) ℓ) (ρ : Dev nD → PrngReg)

/-! ## The index maps over the grid -/

/-- The output's block index: a batch entry, no head tiling, a query tile and a key tile. -/
theorem out_idx : ∀ t : Fin cfg0.N, win0_9.index t (0 : Fin 4) < 2 ∧ win0_9.index t (1 : Fin 4) = 0
    ∧ win0_9.index t (2 : Fin 4) < 8 ∧ win0_9.index t (3 : Fin 4) < 8 :=
  (by decide +kernel : ∀ t : Fin grid0.N, _)

/-- The score's window moves with the output's. -/
theorem in0_idx : ∀ t : Fin cfg0.N, win0_0.index t (0 : Fin 4) = win0_9.index t (0 : Fin 4) ∧ win0_0.index t (1 : Fin 4) = 0
    ∧ win0_0.index t (2 : Fin 4) = win0_9.index t (2 : Fin 4) ∧ win0_0.index t (3 : Fin 4) = win0_9.index t (3 : Fin 4) :=
  (by decide +kernel : ∀ t : Fin grid0.N, _)

/-- The query-side feature windows follow the batch entry and the query tile; the key-side ones the key tile. -/
theorem in1_idx : ∀ t : Fin cfg0.N, win0_1.index t (0 : Fin 3) = win0_9.index t (0 : Fin 4)
    ∧ win0_1.index t (1 : Fin 3) = win0_9.index t (2 : Fin 4) ∧ win0_1.index t (2 : Fin 3) = 0 :=
  (by decide +kernel : ∀ t : Fin grid0.N, _)
theorem in2_idx : ∀ t : Fin cfg0.N, win0_2.index t (0 : Fin 3) = win0_9.index t (0 : Fin 4)
    ∧ win0_2.index t (1 : Fin 3) = win0_9.index t (3 : Fin 4) ∧ win0_2.index t (2 : Fin 3) = 0 :=
  (by decide +kernel : ∀ t : Fin grid0.N, _)
theorem in3_idx : ∀ t : Fin cfg0.N, win0_3.index t (0 : Fin 3) = win0_9.index t (0 : Fin 4)
    ∧ win0_3.index t (1 : Fin 3) = win0_9.index t (2 : Fin 4) ∧ win0_3.index t (2 : Fin 3) = 0 :=
  (by decide +kernel : ∀ t : Fin grid0.N, _)
theorem in4_idx : ∀ t : Fin cfg0.N, win0_4.index t (0 : Fin 3) = win0_9.index t (0 : Fin 4)
    ∧ win0_4.index t (1 : Fin 3) = win0_9.index t (3 : Fin 4) ∧ win0_4.index t (2 : Fin 3) = 0 :=
  (by decide +kernel : ∀ t : Fin grid0.N, _)

/-- The coefficient tables are staged whole at every point. -/
theorem tbl_idx : ∀ t : Fin cfg0.N, win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every (batch entry, query tile, key tile) is some point's. -/
theorem idx_onto : ∀ (b : Fin 2) (qi ki : Fin 8), ∃ t : Fin cfg0.N, win0_9.index t = ![b.val, 0, qi.val, ki.val] :=
  (by decide +kernel : ∀ (b : Fin 2) (qi ki : Fin 8), ∃ t : Fin grid0.N, win0_9.index t = ![b.val, 0, qi.val, ki.val])

/-- A point's batch entry, query tile and key tile. -/
def pb (t : Fin cfg0.N) : Fin 2 := ⟨win0_9.index t (0 : Fin 4), (out_idx t).1⟩
def pq (t : Fin cfg0.N) : Fin 8 := ⟨win0_9.index t (2 : Fin 4), (out_idx t).2.2.1⟩
def pk (t : Fin cfg0.N) : Fin 8 := ⟨win0_9.index t (3 : Fin 4), (out_idx t).2.2.2⟩

/-- Row r of tile p. -/
def row (p : Fin 8) (r : Fin 256) : Fin 2048 := ⟨p.val * 256 + r.val, by have := p.isLt; have := r.isLt; omega⟩

/-! ## Each block is the part of its array under the point's rows -/

/-- The output block's entry (0, h, q, k) lies at (b, h, 256·qi + q, 256·ki + k) of the result. -/
theorem emb_out (t : Fin cfg0.N) (h : Fin 8) (q k : Fin 256) :
    ((cfg0.win 9).blk t).view.emb (ix4 (0 : Fin 1) h q k) = ix4 (pb t) h (row (pq t) q) (row (pk t) k) := by
  obtain ⟨_, e1, _, _⟩ := out_idx t
  funext a; apply Fin.ext
  match a with
  | ⟨0, _⟩ => show win0_9.index t (0 : Fin 4) * 1 + 1 * 0 = win0_9.index t (0 : Fin 4); omega
  | ⟨1, _⟩ => show win0_9.index t (1 : Fin 4) * 8 + 1 * h.val = h.val; omega
  | ⟨2, _⟩ => show win0_9.index t (2 : Fin 4) * 256 + 1 * q.val = win0_9.index t (2 : Fin 4) * 256 + q.val; omega
  | ⟨3, _⟩ => show win0_9.index t (3 : Fin 4) * 256 + 1 * k.val = win0_9.index t (3 : Fin 4) * 256 + k.val; omega

theorem read0 (c : Dev nD) (t : Fin cfg0.N) (h : Fin 8) (q k : Fin 256) :
    (iblk m c 0 t : Vec Ideal S1x8x256x256 .f32) (ix4 (0 : Fin 1) h q k)
      = (V m c main_arg0 : Vec Ideal S2x8x2048x2048 .f32) (ix4 (pb t) h (row (pq t) q) (row (pk t) k)) := by
  obtain ⟨e0, e1, e2, e3⟩ := in0_idx t
  show V m c main_arg0 (((cfg0.win 0).blk t).view.emb (ix4 (0 : Fin 1) h q k)) = _
  refine congrArg (V m c main_arg0) (funext fun a => Fin.ext ?_)
  match a with
  | ⟨0, _⟩ => show win0_0.index t (0 : Fin 4) * 1 + 1 * 0 = win0_9.index t (0 : Fin 4); omega
  | ⟨1, _⟩ => show win0_0.index t (1 : Fin 4) * 8 + 1 * h.val = h.val; omega
  | ⟨2, _⟩ => show win0_0.index t (2 : Fin 4) * 256 + 1 * q.val = win0_9.index t (2 : Fin 4) * 256 + q.val; omega
  | ⟨3, _⟩ => show win0_0.index t (3 : Fin 4) * 256 + 1 * k.val = win0_9.index t (3 : Fin 4) * 256 + k.val; omega

theorem read1 (c : Dev nD) (t : Fin cfg0.N) (q : Fin 256) (d : Fin 3) :
    (iblk m c 1 t : Vec Ideal S1x256x3 .f32) (ix3 (0 : Fin 1) q d)
      = (V m c main_arg1 : Vec Ideal S2x2048x3 .f32) (ix3 (pb t) (row (pq t) q) d) := by
  obtain ⟨e0, e1, e2⟩ := in1_idx t
  show V m c main_arg1 (((cfg0.win 1).blk t).view.emb (ix3 (0 : Fin 1) q d)) = _
  refine congrArg (V m c main_arg1) (funext fun a => Fin.ext ?_)
  match a with
  | ⟨0, _⟩ => show win0_1.index t (0 : Fin 3) * 1 + 1 * 0 = win0_9.index t (0 : Fin 4); omega
  | ⟨1, _⟩ => show win0_1.index t (1 : Fin 3) * 256 + 1 * q.val = win0_9.index t (2 : Fin 4) * 256 + q.val; omega
  | ⟨2, _⟩ => show win0_1.index t (2 : Fin 3) * 3 + 1 * d.val = d.val; omega

theorem read2 (c : Dev nD) (t : Fin cfg0.N) (k : Fin 256) (d : Fin 3) :
    (iblk m c 2 t : Vec Ideal S1x256x3 .f32) (ix3 (0 : Fin 1) k d)
      = (V m c main_arg2 : Vec Ideal S2x2048x3 .f32) (ix3 (pb t) (row (pk t) k) d) := by
  obtain ⟨e0, e1, e2⟩ := in2_idx t
  show V m c main_arg2 (((cfg0.win 2).blk t).view.emb (ix3 (0 : Fin 1) k d)) = _
  refine congrArg (V m c main_arg2) (funext fun a => Fin.ext ?_)
  match a with
  | ⟨0, _⟩ => show win0_2.index t (0 : Fin 3) * 1 + 1 * 0 = win0_9.index t (0 : Fin 4); omega
  | ⟨1, _⟩ => show win0_2.index t (1 : Fin 3) * 256 + 1 * k.val = win0_9.index t (3 : Fin 4) * 256 + k.val; omega
  | ⟨2, _⟩ => show win0_2.index t (2 : Fin 3) * 3 + 1 * d.val = d.val; omega

theorem read3 (c : Dev nD) (t : Fin cfg0.N) (q : Fin 256) (d : Fin 1) :
    (iblk m c 3 t : Vec Ideal S1x256x1 .f32) (ix3 (0 : Fin 1) q d)
      = (V m c main_arg3 : Vec Ideal S2x2048x1 .f32) (ix3 (pb t) (row (pq t) q) d) := by
  obtain ⟨e0, e1, e2⟩ := in3_idx t
  show V m c main_arg3 (((cfg0.win 3).blk t).view.emb (ix3 (0 : Fin 1) q d)) = _
  refine congrArg (V m c main_arg3) (funext fun a => Fin.ext ?_)
  match a with
  | ⟨0, _⟩ => show win0_3.index t (0 : Fin 3) * 1 + 1 * 0 = win0_9.index t (0 : Fin 4); omega
  | ⟨1, _⟩ => show win0_3.index t (1 : Fin 3) * 256 + 1 * q.val = win0_9.index t (2 : Fin 4) * 256 + q.val; omega
  | ⟨2, _⟩ => show win0_3.index t (2 : Fin 3) * 1 + 1 * d.val = d.val; omega

theorem read4 (c : Dev nD) (t : Fin cfg0.N) (k : Fin 256) (d : Fin 1) :
    (iblk m c 4 t : Vec Ideal S1x256x1 .f32) (ix3 (0 : Fin 1) k d)
      = (V m c main_arg4 : Vec Ideal S2x2048x1 .f32) (ix3 (pb t) (row (pk t) k) d) := by
  obtain ⟨e0, e1, e2⟩ := in4_idx t
  show V m c main_arg4 (((cfg0.win 4).blk t).view.emb (ix3 (0 : Fin 1) k d)) = _
  refine congrArg (V m c main_arg4) (funext fun a => Fin.ext ?_)
  match a with
  | ⟨0, _⟩ => show win0_4.index t (0 : Fin 3) * 1 + 1 * 0 = win0_9.index t (0 : Fin 4); omega
  | ⟨1, _⟩ => show win0_4.index t (1 : Fin 3) * 256 + 1 * k.val = win0_9.index t (3 : Fin 4) * 256 + k.val; omega
  | ⟨2, _⟩ => show win0_4.index t (2 : Fin 3) * 1 + 1 * d.val = d.val; omega

theorem read5 (c : Dev nD) (t : Fin cfg0.N) (n : Fin 4) (h : Fin 8) :
    (iblk m c 5 t : Vec Ideal S4x8 .f32) (ix2 n h) = (V m c main_arg5 : Vec Ideal S4x8 .f32) (ix2 n h) := by
  obtain ⟨e0, e1, _⟩ := tbl_idx t
  show V m c main_arg5 (((cfg0.win 5).blk t).view.emb (ix2 n h)) = _
  refine congrArg (V m c main_arg5) (funext fun a => Fin.ext ?_)
  match a with
  | ⟨0, _⟩ => show win0_5.index t (0 : Fin 2) * 4 + 1 * n.val = n.val; omega
  | ⟨1, _⟩ => show win0_5.index t (1 : Fin 2) * 8 + 1 * h.val = h.val; omega

theorem read6 (c : Dev nD) (t : Fin cfg0.N) (n : Fin 4) (h : Fin 8) :
    (iblk m c 6 t : Vec Ideal S4x8 .f32) (ix2 n h) = (V m c main_arg6 : Vec Ideal S4x8 .f32) (ix2 n h) := by
  obtain ⟨_, _, e0, e1, _⟩ := tbl_idx t
  show V m c main_arg6 (((cfg0.win 6).blk t).view.emb (ix2 n h)) = _
  refine congrArg (V m c main_arg6) (funext fun a => Fin.ext ?_)
  match a with
  | ⟨0, _⟩ => show win0_6.index t (0 : Fin 2) * 4 + 1 * n.val = n.val; omega
  | ⟨1, _⟩ => show win0_6.index t (1 : Fin 2) * 8 + 1 * h.val = h.val; omega

theorem read7 (c : Dev nD) (t : Fin cfg0.N) (n : Fin 4) (h : Fin 8) :
    (iblk m c 7 t : Vec Ideal S4x8 .f32) (ix2 n h) = (V m c main_arg7 : Vec Ideal S4x8 .f32) (ix2 n h) := by
  obtain ⟨_, _, _, _, e0, e1, _⟩ := tbl_idx t
  show V m c main_arg7 (((cfg0.win 7).blk t).view.emb (ix2 n h)) = _
  refine congrArg (V m c main_arg7) (funext fun a => Fin.ext ?_)
  match a with
  | ⟨0, _⟩ => show win0_7.index t (0 : Fin 2) * 4 + 1 * n.val = n.val; omega
  | ⟨1, _⟩ => show win0_7.index t (1 : Fin 2) * 8 + 1 * h.val = h.val; omega

theorem read8 (c : Dev nD) (t : Fin cfg0.N) (n : Fin 4) (h : Fin 8) :
    (iblk m c 8 t : Vec Ideal S4x8 .f32) (ix2 n h) = (V m c main_arg8 : Vec Ideal S4x8 .f32) (ix2 n h) := by
  obtain ⟨_, _, _, _, _, _, e0, e1⟩ := tbl_idx t
  show V m c main_arg8 (((cfg0.win 8).blk t).view.emb (ix2 n h)) = _
  refine congrArg (V m c main_arg8) (funext fun a => Fin.ext ?_)
  match a with
  | ⟨0, _⟩ => show win0_8.index t (0 : Fin 2) * 4 + 1 * n.val = n.val; omega
  | ⟨1, _⟩ => show win0_8.index t (1 : Fin 2) * 8 + 1 * h.val = h.val; omega

/-! ## What a point writes back, the cover, the array -/

/-- The result array as a function of the argument arrays as the region finds them. -/
abbrev result (c : Dev nD) : Vec Ideal S2x8x2048x2048 .f32 :=
  biasedArr (B := 2) (H := 8) (Q := 2048) (K := 2048) (V m c main_arg0) (V m c main_arg1) (V m c main_arg2) (V m c main_arg3)
    (V m c main_arg4) (V m c main_arg5) (V m c main_arg6) (V m c main_arg7) (V m c main_arg8)

/-- WHAT POINT `t` WRITES BACK is its block of `result`. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after0_9]
  refine funext fun (y : S1x8x256x256.Idx) => ?_
  obtain ⟨z, h, q, k, rfl⟩ : ∃ (z : Fin 1) (h : Fin 8) (q k : Fin 256), y = ix4 z h q k := ⟨y 0, y 1, y 2, y 3, eq_ix4 y⟩
  obtain rfl : z = 0 := Subsingleton.elim _ _
  show out0_9 (iblk m c 0 t) (iblk m c 1 t) (iblk m c 2 t) (iblk m c 3 t) (iblk m c 4 t) (iblk m c 5 t) (iblk m c 6 t)
      (iblk m c 7 t) (iblk m c 8 t) (ix4 (0 : Fin 1) h q k)
    = result m c (((cfg0.win 9).blk t).view.emb (ix4 (0 : Fin 1) h q k))
  rw [emb_out t h q k]
  refine (block_value _ _ _ _ _ _ _ _ _ h q k).trans ?_
  exact biased_congr _ _ _ _ _ _ _ _ _ _ _ _ _ _ _ _ _ _ (0 : Fin 1) (pb t) (row (pq t)) (row (pk t))
    (read0 m c t) (read1 m c t) (read2 m c t) (read3 m c t) (read4 m c t) (read5 m c t) (read6 m c t) (read7 m c t)
    (read8 m c t) h q k

/-- An index of the result lies in point `t`'s box iff each coordinate lies in the box's range on its axis. -/
theorem mem_blk (t : Fin cfg0.N) (i : S2x8x2048x2048.Idx) :
    i ∈ ((cfg0.win 9).blk t).view.set ↔ ∀ a : Fin 4, win0_9.index t a * S1x8x256x256.size a ≤ (i a).val
      ∧ (i a).val < win0_9.index t a * S1x8x256x256.size a + S1x8x256x256.size a := by
  show i ∈ ((View.whole main_v0).slice (win0_9.rect t)).set ↔ _
  rw [View.set_slice_whole, Rect.mem_set_unit]
  exact Iff.rfl

/-- The boxes cover the result: entry (b, h, r, s) lies in the box of the point (b, r / 256, s / 256). -/
theorem cover (i : S2x8x2048x2048.Idx) :
    ∃ t : Fin cfg0.N, (cfg0.win 9).flush t = true ∧ i ∈ ((cfg0.win 9).blk t).view.set := by
  have hi0 : (i 0).val < 2 := (i 0).isLt
  have hi1 : (i 1).val < 8 := (i 1).isLt
  have hi2 : (i 2).val < 2048 := (i 2).isLt
  have hi3 : (i 3).val < 2048 := (i 3).isLt
  obtain ⟨t, ht⟩ := idx_onto ⟨(i 0).val, hi0⟩ ⟨(i 2).val / 256, by omega⟩ ⟨(i 3).val / 256, by omega⟩
  have q0 : win0_9.index t (0 : Fin 4) = (i 0).val := congrFun ht 0
  have q1 : win0_9.index t (1 : Fin 4) = 0 := congrFun ht 1
  have q2 : win0_9.index t (2 : Fin 4) = (i 2).val / 256 := congrFun ht 2
  have q3 : win0_9.index t (3 : Fin 4) = (i 3).val / 256 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 8 ≤ (i 1).val ∧ (i 1).val < win0_9.index t (1 : Fin 4) * 8 + 8; omega
  | ⟨2, _⟩ => show win0_9.index t (2 : Fin 4) * 256 ≤ (i 2).val ∧ (i 2).val < win0_9.index t (2 : Fin 4) * 256 + 256; omega
  | ⟨3, _⟩ => show win0_9.index t (3 : Fin 4) * 256 ≤ (i 3).val ∧ (i 3).val < win0_9.index t (3 : Fin 4) * 256 + 256; omega

/-- THE ARRAY after the run. -/
theorem final (c : Dev nD) : (dats m 0 c).arrAt 9 cfg0.N = result m c :=
  (dats m 0 c).arrAt_eq_of_cover 9 (result m c) (fun t _ => flushed_eq m c t) cover

/-- THE RUN, READ: the result array at `result`, the nine argument arrays unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 9).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.ArrayValue

end
-- ==== Proof.RefValue.lean ====
/-
  The reference's result, read at one entry, is the biased score of its arguments.

  The host program computes the two squared-distance arrays [2, 2048, 2048] by broadcasting the query rows along the
  key axis and the key rows along the query axis, subtracting, squaring and summing the feature axis from a zero;
  then, eight times over, lays row n of a coefficient table along the head axis as [1, 8, 1, 1] (`hostCoef`), and adds
  to the running result the term α·exp((−β)·D), every factor broadcast to [2, 8, 2048, 2048] (`hostTerm`). The
  generated stages are compositions of these two shapes (by unfolding), so the result at (b, h, q, k) is `biased`
  of Proof/LibRbfBias.lean over the whole arrays: a sum over the features started from a zero is the plain sum, and
  the running result is already grouped to the left.
-/
import proofs.«108492_j17781164605640_2_alg».proof.Proof.Gen.ReferenceIdeal.Read
import proofs.«108492_j17781164605640_2_alg».proof.Proof.LibRbfBias
import proofs.«108492_j17781164605640_2_alg».proof.Proof.LibHeadAxisLayouts
import Idealize.ShloMosaic.Lib.ValueLayout
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe
open Cert.RbfBias Cert.HeadAxisLayouts

/-! ## The two shapes, for any float instance -/

section Shapes

variable {F : FTy → Type} [FloatOps F]

/-- Row `o` of a [4, 8] table laid along the head axis of [1, 8, 1, 1]. -/
def hostCoef (o : Nat) (hs : S4x8.Slices ![o, 0] S1x8) (x : FVec F S4x8 .f32) : FVec F S1x8x1x1 .f32 :=
  broadcastInDim S1x8x1x1 ![1] bcast_S8_S1x8x1x1_1 (shapeCast S8 (extractStridedSlice S1x8 ![o, 0] x hs) shapeCasts_S1x8_S8)

/-- One host term over a distance array: α·exp((−β)·D), every factor broadcast to [2, 8, 2048, 2048]. -/
def hostTerm (a b : FVec F S1x8x1x1 .f32) (D : FVec F S2x2048x2048 .f32) : FVec F S2x8x2048x2048 .f32 :=
  mulf (broadcastInDim S2x8x2048x2048 ![0, 1, 2, 3] bcast_S1x8x1x1_S2x8x2048x2048_0_1_2_3 a)
    (Host.exp (mulf (broadcastInDim S2x8x2048x2048 ![0, 1, 2, 3] bcast_S1x8x1x1_S2x8x2048x2048_0_1_2_3 (Host.negf b))
      (broadcastInDim S2x8x2048x2048 ![0, 1, 2, 3] bcast_S2x1x2048x2048_S2x8x2048x2048_0_1_2_3
        (broadcastInDim S2x1x2048x2048 ![0, 2, 3] bcast_S2x2048x2048_S2x1x2048x2048_0_2_3 D))))

/-- The program's result is the score with eight host terms added one after another. -/
theorem result_eq_terms (x0 : FVec F S2x8x2048x2048 .f32) (x1 x2 : FVec F S2x2048x3 .f32) (x3 x4 : FVec F S2x2048x1 .f32)
    (x5 x6 x7 x8 : FVec F S4x8 .f32) :
    val_main_v133 x0 x1 x2 x3 x4 x5 x6 x7 x8
      = addf (addf (addf (addf (addf (addf (addf (addf x0
          (hostTerm (hostCoef 0 slices_S4x8_S1x8_0_0 x5) (hostCoef 0 slices_S4x8_S1x8_0_0 x6) (val_main_v6 x1 x2)))
          (hostTerm (hostCoef 1 slices_S4x8_S1x8_1_0 x5) (hostCoef 1 slices_S4x8_S1x8_1_0 x6) (val_main_v6 x1 x2)))
          (hostTerm (hostCoef 2 slices_S4x8_S1x8_2_0 x5) (hostCoef 2 slices_S4x8_S1x8_2_0 x6) (val_main_v6 x1 x2)))
          (hostTerm (hostCoef 3 slices_S4x8_S1x8_3_0 x5) (hostCoef 3 slices_S4x8_S1x8_3_0 x6) (val_main_v6 x1 x2)))
          (hostTerm (hostCoef 0 slices_S4x8_S1x8_0_0 x7) (hostCoef 0 slices_S4x8_S1x8_0_0 x8) (val_main_v13 x3 x4)))
          (hostTerm (hostCoef 1 slices_S4x8_S1x8_1_0 x7) (hostCoef 1 slices_S4x8_S1x8_1_0 x8) (val_main_v13 x3 x4)))
          (hostTerm (hostCoef 2 slices_S4x8_S1x8_2_0 x7) (hostCoef 2 slices_S4x8_S1x8_2_0 x8) (val_main_v13 x3 x4)))
          (hostTerm (hostCoef 3 slices_S4x8_S1x8_3_0 x7) (hostCoef 3 slices_S4x8_S1x8_3_0 x8) (val_main_v13 x3 x4)) := rfl

/-- A coefficient laid along the head axis reads, at (0, h, 0, 0), the table at (n, h). -/
theorem hostCoef_apply (o : Nat) (hs : S4x8.Slices ![o, 0] S1x8) (x : FVec F S4x8 .f32) (n : Fin 4) (hn : n.val = o)
    (h : Fin 8) : hostCoef o hs x (ix4 (0 : Fin 1) h (0 : Fin 1) (0 : Fin 1)) = x (ix2 n h) := by
  unfold hostCoef
  refine (broadcastInDim_apply _ bcast_S8_S1x8x1x1_1 _ (ix4 (0 : Fin 1) h (0 : Fin 1) (0 : Fin 1)) (ix1 h) (fun a => ?_)).trans ?_
  · match a with
    | ⟨0, _⟩ => show h.val = if (8 : Nat) = 1 then 0 else h.val; rw [if_neg (by decide)]
  · rw [vecOfRow_apply]
    exact slice2_axis0_apply o x hs (0 : Fin 1) h n (by rw [hn]; rfl)

/-- [1, 8, 1, 1] broadcast to the whole result reads, at (b, h, q, k), the operand at (0, h, 0, 0). -/
theorem headToAll_apply (a : FVec F S1x8x1x1 .f32) (b : Fin 2) (h : Fin 8) (q k : Fin 2048) :
    broadcastInDim S2x8x2048x2048 ![0, 1, 2, 3] bcast_S1x8x1x1_S2x8x2048x2048_0_1_2_3 a (ix4 b h q k)
      = a (ix4 (0 : Fin 1) h (0 : Fin 1) (0 : Fin 1)) :=
  broadcastInDim_apply _ bcast_S1x8x1x1_S2x8x2048x2048_0_1_2_3 a (ix4 b h q k) (ix4 (0 : Fin 1) h (0 : Fin 1) (0 : Fin 1))
    (fun c => match c with
      | ⟨0, _⟩ => by show 0 = if (1 : Nat) = 1 then 0 else b.val; rw [if_pos rfl]
      | ⟨1, _⟩ => by show h.val = if (8 : Nat) = 1 then 0 else h.val; rw [if_neg (by decide)]
      | ⟨2, _⟩ => by show 0 = if (1 : Nat) = 1 then 0 else q.val; rw [if_pos rfl]
      | ⟨3, _⟩ => by show 0 = if (1 : Nat) = 1 then 0 else k.val; rw [if_pos rfl])

/-- A [2, 2048, 2048] array given a unit head axis and broadcast along it reads, at (b, h, q, k), the array at (b, q, k). -/
theorem planeToAll_apply (D : FVec F S2x2048x2048 .f32) (b : Fin 2) (h : Fin 8) (q k : Fin 2048) :
    broadcastInDim S2x8x2048x2048 ![0, 1, 2, 3] bcast_S2x1x2048x2048_S2x8x2048x2048_0_1_2_3
        (broadcastInDim S2x1x2048x2048 ![0, 2, 3] bcast_S2x2048x2048_S2x1x2048x2048_0_2_3 D) (ix4 b h q k)
      = D (ix3 b q k) := by
  refine (broadcastInDim_apply _ bcast_S2x1x2048x2048_S2x8x2048x2048_0_1_2_3 _ (ix4 b h q k) (ix4 b (0 : Fin 1) q k)
    (fun c => match c with
      | ⟨0, _⟩ => by show b.val = if (2 : Nat) = 1 then 0 else b.val; rw [if_neg (by decide)]
      | ⟨1, _⟩ => by show 0 = if (1 : Nat) = 1 then 0 else h.val; rw [if_pos rfl]
      | ⟨2, _⟩ => by show q.val = if (2048 : Nat) = 1 then 0 else q.val; rw [if_neg (by decide)]
      | ⟨3, _⟩ => by show k.val = if (2048 : Nat) = 1 then 0 else k.val; rw [if_neg (by decide)])).trans ?_
  exact broadcastInDim_apply _ bcast_S2x2048x2048_S2x1x2048x2048_0_2_3 D (ix4 b (0 : Fin 1) q k) (ix3 b q k)
    (fun c => match c with
      | ⟨0, _⟩ => by show b.val = if (2 : Nat) = 1 then 0 else b.val; rw [if_neg (by decide)]
      | ⟨1, _⟩ => by show q.val = if (2048 : Nat) = 1 then 0 else q.val; rw [if_neg (by decide)]
      | ⟨2, _⟩ => by show k.val = if (2048 : Nat) = 1 then 0 else k.val; rw [if_neg (by decide)])

end Shapes

/-! ## The arithmetic, on the extended reals -/

theorem hostTerm_apply (a b : FVec Ideal S1x8x1x1 .f32) (D : FVec Ideal S2x2048x2048 .f32) (b' : Fin 2) (h : Fin 8)
    (q k : Fin 2048) :
    hostTerm a b D (ix4 b' h q k)
      = rbf (a (ix4 (0 : Fin 1) h (0 : Fin 1) (0 : Fin 1))) (b (ix4 (0 : Fin 1) h (0 : Fin 1) (0 : Fin 1))) (D (ix3 b' q k)) := by
  show broadcastInDim S2x8x2048x2048 ![0, 1, 2, 3] bcast_S1x8x1x1_S2x8x2048x2048_0_1_2_3 a (ix4 b' h q k)
      * Ideal.exp (broadcastInDim S2x8x2048x2048 ![0, 1, 2, 3] bcast_S1x8x1x1_S2x8x2048x2048_0_1_2_3 (Host.negf b) (ix4 b' h q k)
        * broadcastInDim S2x8x2048x2048 ![0, 1, 2, 3] bcast_S2x1x2048x2048_S2x8x2048x2048_0_1_2_3
            (broadcastInDim S2x1x2048x2048 ![0, 2, 3] bcast_S2x2048x2048_S2x1x2048x2048_0_2_3 D) (ix4 b' h q k)) = _
  rw [headToAll_apply, headToAll_apply, planeToAll_apply]
  rfl

/-- The index the feature sum reads: feature d of query row q, and of key row k. -/
theorem qIdx3 (b : Fin 2) (q k : Fin 2048) (d : Fin 3) :
    idx_main_v0 (idx_main_v2 (idx_main_v6 (ix3 b q k) d)) = ix3 b q d :=
  funext fun a => Fin.ext (by match a with | ⟨0, _⟩ => rfl | ⟨1, _⟩ => rfl | ⟨2, _⟩ => rfl)
theorem kIdx3 (b : Fin 2) (q k : Fin 2048) (d : Fin 3) :
    idx_main_v1 (idx_main_v3 (idx_main_v6 (ix3 b q k) d)) = ix3 b k d :=
  funext fun a => Fin.ext (by match a with | ⟨0, _⟩ => rfl | ⟨1, _⟩ => rfl | ⟨2, _⟩ => rfl)
theorem qIdx1 (b : Fin 2) (q k : Fin 2048) :
    idx_main_v7 (idx_main_v9 (idx_main_v13 (ix3 b q k) (0 : Fin 1))) = ix3 b q (0 : Fin 1) :=
  funext fun a => Fin.ext (by match a with | ⟨0, _⟩ => rfl | ⟨1, _⟩ => rfl | ⟨2, _⟩ => rfl)
theorem kIdx1 (b : Fin 2) (q k : Fin 2048) :
    idx_main_v8 (idx_main_v10 (idx_main_v13 (ix3 b q k) (0 : Fin 1))) = ix3 b k (0 : Fin 1) :=
  funext fun a => Fin.ext (by match a with | ⟨0, _⟩ => rfl | ⟨1, _⟩ => rfl | ⟨2, _⟩ => rfl)

/-- The three-feature distance array at (b, q, k). -/
theorem distS_value (x1 x2 : FVec Ideal S2x2048x3 .f32) (b : Fin 2) (q k : Fin 2048) :
    val_main_v6 (F := Ideal) x1 x2 (ix3 b q k) = distS x1 x2 b q k := by
  rw [val_main_v6_apply, Fin.sum_univ_three]
  simp only [val_main_v5_apply, val_main_v4_apply, val_main_v2_apply, val_main_v3_apply, val_main_v0_apply,
    val_main_v1_apply, qIdx3, kIdx3]
  show Ideal.ofBits .f32 0x00000000#32 + (sqd _ _ + sqd _ _ + sqd _ _) = _
  rw [Ideal.ofBits_zero_f32, zero_add]
  rfl

/-- The one-feature distance array at (b, q, k). -/
theorem distT_value (x3 x4 : FVec Ideal S2x2048x1 .f32) (b : Fin 2) (q k : Fin 2048) :
    val_main_v13 (F := Ideal) x3 x4 (ix3 b q k) = distT x3 x4 b q k := by
  rw [val_main_v13_apply, Fin.sum_univ_one]
  simp only [val_main_v12_apply, val_main_v11_apply, val_main_v9_apply, val_main_v10_apply, val_main_v7_apply,
    val_main_v8_apply, qIdx1, kIdx1]
  show Ideal.ofBits .f32 0x00000000#32 + sqd _ _ = _
  rw [Ideal.ofBits_zero_f32, zero_add]
  rfl

/-- THE REFERENCE'S RESULT at (b, h, q, k). -/
theorem result_value (x0 : FVec Ideal S2x8x2048x2048 .f32) (x1 x2 : FVec Ideal S2x2048x3 .f32) (x3 x4 : FVec Ideal S2x2048x1 .f32)
    (x5 x6 x7 x8 : FVec Ideal S4x8 .f32) (b : Fin 2) (h : Fin 8) (q k : Fin 2048) :
    val_main_v133 (F := Ideal) x0 x1 x2 x3 x4 x5 x6 x7 x8 (ix4 b h q k) = biased x0 x1 x2 x3 x4 x5 x6 x7 x8 b h q k := by
  rw [result_eq_terms]
  simp only [ValueIdx.addf_apply, hostTerm_apply, distS_value, distT_value]
  rw [hostCoef_apply 0 _ x5 0 rfl h, hostCoef_apply 0 _ x6 0 rfl h, hostCoef_apply 1 _ x5 1 rfl h, hostCoef_apply 1 _ x6 1 rfl h,
    hostCoef_apply 2 _ x5 2 rfl h, hostCoef_apply 2 _ x6 2 rfl h, hostCoef_apply 3 _ x5 3 rfl h, hostCoef_apply 3 _ x6 3 rfl h,
    hostCoef_apply 0 _ x7 0 rfl h, hostCoef_apply 0 _ x8 0 rfl h, hostCoef_apply 1 _ x7 1 rfl h, hostCoef_apply 1 _ x8 1 rfl h,
    hostCoef_apply 2 _ x7 2 rfl h, hostCoef_apply 2 _ x8 2 rfl h, hostCoef_apply 3 _ x7 3 rfl h, hostCoef_apply 3 _ x8 3 rfl h]
  rfl

end Cert.ReferenceIdeal.RefValue

end
-- ==== Proof.lean ====
/-
  A score [2, 8, 2048, 2048] biased by per-head radial-basis terms: the tiled kernel against the plain array program.

  Both programs compute, for batch entry b, head h, query row q and key row k,

      score[b,h,q,k] + Σ_{n<4} αs[n,h]·exp(−βs[n,h]·dS[b,q,k]) + Σ_{n<4} αt[n,h]·exp(−βt[n,h]·dT[b,q,k]),

  dS the squared distance of the two rows over three features and dT over one (Proof/LibRbfBias.lean: `biased`,
  `biasedArr`). The kernel walks a 2 × 8 × 8 grid of [1, 8, 256, 256] boxes; in each it builds the two distance maps once,
  sums the eight terms from a zero and adds the finished bias to the score block, writing −β as 0 − β
  (Proof/KernelBody.lean, Proof/KernelBlock.lean); its boxes tile the result, so the result array after the run is
  `biasedArr` of the argument arrays (Proof/KernelArray.lean). The reference broadcasts everything to the full shape
  and adds term after term onto the score (Proof/RefValue.lean). On the extended reals the two agree whatever the
  inputs are: the only laws used are 0 + x = x, 0 − x = −x and the associativity of addition, none of which fails at
  an infinity; so the precondition (finite inputs) is never opened.

  The three frames are the generated ones (the reference's is its generated run with the result dropped), and the
  idealization rewrote nothing, so `preserves` is `True`.
-/
import proofs.«108492_j17781164605640_2_alg».proof.Defs
import proofs.«108492_j17781164605640_2_alg».proof.Proof.Gen.Kernel
import proofs.«108492_j17781164605640_2_alg».proof.Proof.Gen.Kernel.Skeleton
import proofs.«108492_j17781164605640_2_alg».proof.Proof.Gen.Kernel.Launch
import proofs.«108492_j17781164605640_2_alg».proof.Proof.Gen.Kernel.Points
import proofs.«108492_j17781164605640_2_alg».proof.Proof.Gen.Kernel.Frame
import proofs.«108492_j17781164605640_2_alg».proof.Proof.Gen.KernelIdeal
import proofs.«108492_j17781164605640_2_alg».proof.Proof.Gen.KernelIdeal.Skeleton
import proofs.«108492_j17781164605640_2_alg».proof.Proof.Gen.KernelIdeal.Launch
import proofs.«108492_j17781164605640_2_alg».proof.Proof.Gen.KernelIdeal.Points
import proofs.«108492_j17781164605640_2_alg».proof.Proof.Gen.KernelIdeal.Frame
import proofs.«108492_j17781164605640_2_alg».proof.Proof.Gen.ReferenceIdeal
import proofs.«108492_j17781164605640_2_alg».proof.Proof.Gen.Pre_finite_inputs
import proofs.«108492_j17781164605640_2_alg».proof.Proof.Gen.ReferenceIdeal.Run
import proofs.«108492_j17781164605640_2_alg».proof.Proof.Gen.ReferenceIdeal.Read
import proofs.«108492_j17781164605640_2_alg».proof.Proof.KernelArray
import proofs.«108492_j17781164605640_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the nine arguments the kernel's result array ends at `biasedArr` of them (the tiled
    run read block by block) and the reference's at its composed stages, which entry by entry are `biased` of the
    same arrays. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v133_eq, a0, a1, a2, a3, a4, a5, a6, a7, a8]
  funext i
  obtain ⟨b, h, q, k, rfl⟩ : ∃ (b : Fin 2) (h : Fin 8) (q k : Fin 2048), i = ix4 b h q k :=
    ⟨i 0, i 1, i 2, i 3, eq_ix4 i⟩
  exact Cert.ReferenceIdeal.RefValue.result_value _ _ _ _ _ _ _ _ _ b h q k

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
